-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_v82) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x768 : Shape := ⟨2, ![32768, 768]⟩
abbrev S32768x2048 : Shape := ⟨2, ![32768, 2048]⟩
abbrev S768x256 : Shape := ⟨2, ![768, 256]⟩
abbrev S256 : Shape := ⟨1, ![256]⟩
abbrev S2048x256 : Shape := ⟨2, ![2048, 256]⟩
abbrev S_ : Shape := ⟨0, ![]⟩

class Facts : Prop where
  bcast_S_S32768x768 : S_.BroadcastsInDim S32768x768 (![] : Fin 0 → Fin S32768x768.rank)
  reducesTo_S32768x768_S_d0_1 : S32768x768.ReducesTo [0, 1] S_
  h_S_ : 0 < S_.numel
  bcast_S_S32768x2048 : S_.BroadcastsInDim S32768x2048 (![] : Fin 0 → Fin S32768x2048.rank)
  reducesTo_S32768x2048_S_d0_1 : S32768x2048.ReducesTo [0, 1] S_
  bcast_S_S768x256 : S_.BroadcastsInDim S768x256 (![] : Fin 0 → Fin S768x256.rank)
  reducesTo_S768x256_S_d0_1 : S768x256.ReducesTo [0, 1] S_
  bcast_S_S256 : S_.BroadcastsInDim S256 (![] : Fin 0 → Fin S256.rank)
  reducesTo_S256_S_d0 : S256.ReducesTo [0] S_
  bcast_S_S2048x256 : S_.BroadcastsInDim S2048x256 (![] : Fin 0 → Fin S2048x256.rank)
  reducesTo_S2048x256_S_d0_1 : S2048x256.ReducesTo [0, 1] S_

variable [Facts]

def fn_part2 {F : FTy → Type} [FloatOps F] (main_arg7 : FVec F S768x256 .f32) (main_arg8 : FVec F S768x256 .f32) (main_arg9 : FVec F S2048x256 .f32) (main_v33 : IVec S_ 1) : IVec S_ 1 :=
  let main_v34 : FVec F S768x256 .f32 := Host.absf main_arg7
  let main_cst_12 : FVec F S_ .f32 := constant S_ .f32 0x7F800000#32
  let main_v35 : FVec F S768x256 .f32 := broadcastInDim S768x256 ![] bcast_S_S768x256 main_cst_12
  let main_v36 : IVec S768x256 1 := cmpf .olt main_v34 main_v35
  let main_c_13 : IVec S_ 1 := constantI S_ 1 1#1
  let main_v37 : IVec S_ 1 := (fun x v => Host.reduce IntOp.andi x v reducesTo_S768x256_S_d0_1 h_S_) main_v36 main_c_13
  let main_v38 : IVec S_ 1 := andi main_v33 main_v37
  let main_v39 : FVec F S768x256 .f32 := Host.absf main_arg8
  let main_cst_14 : FVec F S_ .f32 := constant S_ .f32 0x7F800000#32
  let main_v40 : FVec F S768x256 .f32 := broadcastInDim S768x256 ![] bcast_S_S768x256 main_cst_14
  let main_v41 : IVec S768x256 1 := cmpf .olt main_v39 main_v40
  let main_c_15 : IVec S_ 1 := constantI S_ 1 1#1
  let main_v42 : IVec S_ 1 := (fun x v => Host.reduce IntOp.andi x v reducesTo_S768x256_S_d0_1 h_S_) main_v41 main_c_15
  let main_v43 : IVec S_ 1 := andi main_v38 main_v42
  let main_v44 : FVec F S2048x256 .f32 := Host.absf main_arg9
  let main_cst_16 : FVec F S_ .f32 := constant S_ .f32 0x7F800000#32
  let main_v45 : FVec F S2048x256 .f32 := broadcastInDim S2048x256 ![] bcast_S_S2048x256 main_cst_16
  let main_v46 : IVec S2048x256 1 := cmpf .olt main_v44 main_v45
  let main_c_17 : IVec S_ 1 := constantI S_ 1 1#1
  let main_v47 : IVec S_ 1 := (fun x v => Host.reduce IntOp.andi x v reducesTo_S2048x256_S_d0_1 h_S_) main_v46 main_c_17
  let main_v48 : IVec S_ 1 := andi main_v43 main_v47
  main_v48

def fn_part1 {F : FTy → Type} [FloatOps F] (main_arg4 : FVec F S2048x256 .f32) (main_arg5 : FVec F S256 .f32) (main_arg6 : FVec F S2048x256 .f32) (main_arg7 : FVec F S768x256 .f32) (main_arg8 : FVec F S768x256 .f32) (main_arg9 : FVec F S2048x256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S2048x256 .f32 := Host.absf main_arg4
  let main_cst_6 : FVec F S_ .f32 := constant S_ .f32 0x7F800000#32
  let main_v20 : FVec F S2048x256 .f32 := broadcastInDim S2048x256 ![] bcast_S_S2048x256 main_cst_6
  let main_v21 : IVec S2048x256 1 := cmpf .olt main_v19 main_v20
  let main_c_7 : IVec S_ 1 := constantI S_ 1 1#1
  let main_v22 : IVec S_ 1 := (fun x v => Host.reduce IntOp.andi x v reducesTo_S2048x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S2048x256 .f32 := Host.absf main_arg6
  let main_cst_10 : FVec F S_ .f32 := constant S_ .f32 0x7F800000#32
  let main_v30 : FVec F S2048x256 .f32 := broadcastInDim S2048x256 ![] bcast_S_S2048x256 main_cst_10
  let main_v31 : IVec S2048x256 1 := cmpf .olt main_v29 main_v30
  let main_c_11 : IVec S_ 1 := constantI S_ 1 1#1
  let main_v32 : IVec S_ 1 := (fun x v => Host.reduce IntOp.andi x v reducesTo_S2048x256_S_d0_1 h_S_) main_v31 main_c_11
  let main_v33 : IVec S_ 1 := andi main_v28 main_v32
  fn_part2 (F := F) main_arg7 main_arg8 main_arg9 main_v33

def fn {F : FTy → Type} [FloatOps F] (main_arg0 : FVec F S32768x768 .f32) (main_arg1 : FVec F S32768x2048 .f32) (main_arg2 : FVec F S768x256 .f32) (main_arg3 : FVec F S256 .f32) (main_arg4 : FVec F S2048x256 .f32) (main_arg5 : FVec F S256 .f32) (main_arg6 : FVec F S2048x256 .f32) (main_arg7 : FVec F S768x256 .f32) (main_arg8 : FVec F S768x256 .f32) (main_arg9 : FVec F S2048x256 .f32) : IVec S_ 1 :=
  let main_v0 : FVec F S32768x768 .f32 := Host.absf main_arg0
  let main_cst : FVec F S_ .f32 := constant S_ .f32 0x7F800000#32
  let main_v1 : FVec F S32768x768 .f32 := broadcastInDim S32768x768 ![] bcast_S_S32768x768 main_cst
  let main_v2 : IVec S32768x768 1 := cmpf .olt main_v0 main_v1
  let main_c : IVec S_ 1 := constantI S_ 1 1#1
  let main_v3 : IVec S_ 1 := (fun x v => Host.reduce IntOp.andi x v reducesTo_S32768x768_S_d0_1 h_S_) main_v2 main_c
  let main_v4 : FVec F S32768x2048 .f32 := Host.absf main_arg1
  let main_cst_0 : FVec F S_ .f32 := constant S_ .f32 0x7F800000#32
  let main_v5 : FVec F S32768x2048 .f32 := broadcastInDim S32768x2048 ![] bcast_S_S32768x2048 main_cst_0
  let main_v6 : IVec S32768x2048 1 := cmpf .olt main_v4 main_v5
  let main_c_1 : IVec S_ 1 := constantI S_ 1 1#1
  let main_v7 : IVec S_ 1 := (fun x v => Host.reduce IntOp.andi x v reducesTo_S32768x2048_S_d0_1 h_S_) main_v6 main_c_1
  let main_v8 : IVec S_ 1 := andi main_v3 main_v7
  let main_v9 : FVec F S768x256 .f32 := Host.absf main_arg2
  let main_cst_2 : FVec F S_ .f32 := constant S_ .f32 0x7F800000#32
  let main_v10 : FVec F S768x256 .f32 := broadcastInDim S768x256 ![] bcast_S_S768x256 main_cst_2
  let main_v11 : IVec S768x256 1 := cmpf .olt main_v9 main_v10
  let main_c_3 : IVec S_ 1 := constantI S_ 1 1#1
  let main_v12 : IVec S_ 1 := (fun x v => Host.reduce IntOp.andi x v reducesTo_S768x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_v13 main_v16
-- ==== Kernel.lean ====
abbrev S32768x768 : Shape := ⟨2, ![32768, 768]⟩
abbrev S32768x2048 : Shape := ⟨2, ![32768, 2048]⟩
abbrev S768x256 : Shape := ⟨2, ![768, 256]⟩
abbrev S256 : Shape := ⟨1, ![256]⟩
abbrev S2048x256 : Shape := ⟨2, ![2048, 256]⟩
abbrev S768x768 : Shape := ⟨2, ![768, 768]⟩
abbrev S2048x768 : Shape := ⟨2, ![2048, 768]⟩
abbrev S1x256 : Shape := ⟨2, ![1, 256]⟩
abbrev S32768x256 : Shape := ⟨2, ![32768, 256]⟩
abbrev S512x768 : Shape := ⟨2, ![512, 768]⟩
abbrev S512x2048 : Shape := ⟨2, ![512, 2048]⟩
abbrev S512x256 : Shape := ⟨2, ![512, 256]⟩
abbrev S512 : Shape := ⟨1, ![512]⟩
abbrev S512x1 : Shape := ⟨2, ![512, 1]⟩

abbrev nBuf : Space → Nat
  | .hbm => 18
  | .vmem => 12
  | .smem => 0
  | _ => 0

abbrev bufTy : (tb : Table) → Fin (tcTables nBuf tb) → BufTy
  | .hbm, ⟨0, _⟩ => ⟨S32768x768, .f32⟩
  | .hbm, ⟨1, _⟩ => ⟨S32768x2048, .f32⟩
  | .hbm, ⟨2, _⟩ => ⟨S768x256, .f32⟩
  | .hbm, ⟨3, _⟩ => ⟨S256, .f32⟩
  | .hbm, ⟨4, _⟩ => ⟨S2048x256, .f32⟩
  | .hbm, ⟨5, _⟩ => ⟨S256, .f32⟩
  | .hbm, ⟨6, _⟩ => ⟨S2048x256, .f32⟩
  | .hbm, ⟨7, _⟩ => ⟨S768x256, .f32⟩
  | .hbm, ⟨8, _⟩ => ⟨S768x256, .f32⟩
  | .hbm, ⟨9, _⟩ => ⟨S2048x256, .f32⟩
  | .hbm, ⟨10, _⟩ => ⟨S768x768, .f32⟩
  | .hbm, ⟨11, _⟩ => ⟨S768x768, .bf16⟩
  | .hbm, ⟨12, _⟩ => ⟨S2048x768, .f32⟩
  | .hbm, ⟨13, _⟩ => ⟨S2048x768, .bf16⟩
  | .hbm, ⟨14, _⟩ => ⟨S1x256, .f32⟩
  | .hbm, ⟨15, _⟩ => ⟨S1x256, .f32⟩
  | .hbm, ⟨16, _⟩ => ⟨S32768x256, .f32⟩
  | .hbm, ⟨17, _⟩ => ⟨S32768x256, .f32⟩
  | .local _ .vmem, ⟨0, _⟩ => ⟨S512x768, .f32⟩
  | .local _ .vmem, ⟨1, _⟩ => ⟨S512x768, .f32⟩
  | .local _ .vmem, ⟨2, _⟩ => ⟨S512x2048, .f32⟩
  | .local _ .vmem, ⟨3, _⟩ => ⟨S512x2048, .f32⟩
  | .local _ .vmem, ⟨4, _⟩ => ⟨S768x768, .bf16⟩
  | .local _ .vmem, ⟨5, _⟩ => ⟨S2048x768, .bf16⟩
  | .local _ .vmem, ⟨6, _⟩ => ⟨S1x256, .f32⟩
  | .local _ .vmem, ⟨7, _⟩ => ⟨S1x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | _, _ => ⟨S32768x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S768x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  concatenates_S768x256_S768x256_S768x256_S768x768_d1 : Shape.Concatenates [S768x256, S768x256, S768x256] S768x768 1
  bitsLt_bf16_f32 : FTy.bits .bf16 < FTy.bits .f32
  concatenates_S2048x256_S2048x256_S2048x256_S2048x768_d1 : Shape.Concatenates [S2048x256, S2048x256, S2048x256] S2048x768 1
  shapeCasts_S256_S1x256 : S256.ShapeCasts S1x256
  inb_S512x768_S512x768_0_0 : ∀ a, (![0, 0] : Fin 2 → Nat) a + S512x768.size a ≤ S512x768.size a
  h_S512x768 : 0 < S512x768.numel
  inb_S512x2048_S512x2048_0_0 : ∀ a, (![0, 0] : Fin 2 → Nat) a + S512x2048.size a ≤ S512x2048.size a
  h_S512x2048 : 0 < S512x2048.numel
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S2048x768_S2048x768_0_0 : ∀ a, (![0, 0] : Fin 2 → Nat) a + S2048x768.size a ≤ S2048x768.size a
  h_S2048x768 : 0 < S2048x768.numel
  shapeCasts_S2048x768_S2048x768 : S2048x768.ShapeCasts S2048x768
  slices_S512x768_o0_0_S512x256 : S512x768.Slices ![0, 0] S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  slices_S512x768_o0_256_S512x256 : S512x768.Slices ![0, 256] S512x256
  slices_S512x768_o0_512_S512x256 : S512x768.Slices ![0, 512] S512x256
  reduces_S512x256_S512 : S512x256.Reduces [1] S512
  shapeCasts_S512_S512x1 : S512.ShapeCasts S512x1
  broadcasts_S512x1_S512x256 : S512x1.Broadcasts S512x256
  inb_S512x256_S512x256_0_0 : ∀ a, (![0, 0] : Fin 2 → Nat) a + S512x256.size a ≤ S512x256.size a
  h_S512x256 : 0 < S512x256.numel
  dot_S512x768_S768x768_S512x768_1_0_0_1_n_n_wf : DotDims.WF S512x768 S768x768 S512x768 [1] [0] [0] [1] [] []
  dot_S512x2048_S2048x768_S512x768_1_0_0_1_n_n_wf : DotDims.WF S512x2048 S2048x768 S512x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x768.size a ≤ S32768x768.size a
  hwx0_0 : ∀ i : grid0.Coords, EltTy.bits .f32 = 32 ∨ (Rect.block (s := S32768x768) S512x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S32768x2048.size a
  hwx0_1 : ∀ i : grid0.Coords, EltTy.bits .f32 = 32 ∨ (Rect.block (s := S32768x2048) S512x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768x768.size a ≤ S768x768.size a
  hwx0_2 : ∀ i : grid0.Coords, EltTy.bits .bf16 = 32 ∨ (Rect.block (s := S768x768) S768x768.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x768.size a ≤ S2048x768.size a
  hwx0_3 : ∀ i : grid0.Coords, EltTy.bits .bf16 = 32 ∨ (Rect.block (s := S2048x768) S2048x768.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x256.size a ≤ S32768x256.size a
  hwx0_6 : ∀ i : grid0.Coords, EltTy.bits .f32 = 32 ∨ (Rect.block (s := S32768x256) S512x256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x256.size a ≤ S32768x256.size a
  hwx0_7 : ∀ i : grid0.Coords, EltTy.bits .f32 = 32 ∨ (Rect.block (s := S32768x256) S512x256.size (cc0_transform_7 i) (hinb0_7 i)).WholeWords (EltTy.packing .f32)

variable [Facts₀]

def dot_S512x768_S768x768_S512x768_1_0_0_1_n_n : DotDims S512x768 S768x768 S512x768 where
  lhsContracting := [1]
  rhsContracting := [0]
  lhsNonContracting := [0]
  rhsNonContracting := [1]
  lhsBatch := []
  rhsBatch := []
  wf := dot_S512x768_S768x768_S512x768_1_0_0_1_n_n_wf
def dot_S512x2048_S2048x768_S512x768_1_0_0_1_n_n : DotDims S512x2048 S2048x768 S512x768 where
  lhsContracting := [1]
  rhsContracting := [0]
  lhsNonContracting := [0]
  rhsNonContracting := [1]
  lhsBatch := []
  rhsBatch := []
  wf := dot_S512x2048_S2048x768_S512x768_1_0_0_1_n_n_wf

abbrev win0_0 : Pipeline.Window sig grid0 :=
  Pipeline.Window.ofSpec (Memref.whole main_arg0) S512x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S768x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2048x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6_0) S512x256.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6_1) S512x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S32768x768 : Shape := ⟨2, ![32768, 768]⟩
abbrev S32768x2048 : Shape := ⟨2, ![32768, 2048]⟩
abbrev S768x256 : Shape := ⟨2, ![768, 256]⟩
abbrev S256 : Shape := ⟨1, ![256]⟩
abbrev S2048x256 : Shape := ⟨2, ![2048, 256]⟩
abbrev S32768x256 : Shape := ⟨2, ![32768, 256]⟩
abbrev S1x256 : Shape := ⟨2, ![1, 256]⟩
abbrev S_ : Shape := ⟨0, ![]⟩
abbrev S32768 : Shape := ⟨1, ![32768]⟩
abbrev S32768x1 : Shape := ⟨2, ![32768, 1]⟩

abbrev nBuf : Space → Nat
  | .hbm => 112
  | .vmem => 0
  | .smem => 0
  | _ => 0

abbrev bufTy : (tb : Table) → Fin (tcTables nBuf tb) → BufTy
  | .hbm, ⟨0, _⟩ => ⟨S32768x768, .f32⟩
  | .hbm, ⟨1, _⟩ => ⟨S32768x2048, .f32⟩
  | .hbm, ⟨2, _⟩ => ⟨S768x256, .f32⟩
  | .hbm, ⟨3, _⟩ => ⟨S256, .f32⟩
  | .hbm, ⟨4, _⟩ => ⟨S2048x256, .f32⟩
  | .hbm, ⟨5, _⟩ => ⟨S256, .f32⟩
  | .hbm, ⟨6, _⟩ => ⟨S2048x256, .f32⟩
  | .hbm, ⟨7, _⟩ => ⟨S768x256, .f32⟩
  | .hbm, ⟨8, _⟩ => ⟨S768x256, .f32⟩
  | .hbm, ⟨9, _⟩ => ⟨S2048x256, .f32⟩
  | .hbm, ⟨10, _⟩ => ⟨S32768x256, .f32⟩
  | .hbm, ⟨11, _⟩ => ⟨S1x256, .f32⟩
  | .hbm, ⟨12, _⟩ => ⟨S32768x256, .f32⟩
  | .hbm, ⟨13, _⟩ => ⟨S32768x256, .f32⟩
  | .hbm, ⟨14, _⟩ => ⟨S32768x256, .f32⟩
  | .hbm, ⟨15, _⟩ => ⟨S1x256, .f32⟩
  | .hbm, ⟨16, _⟩ => ⟨S32768x256, .f32⟩
  | .hbm, ⟨17, _⟩ => ⟨S32768x256, .f32⟩
  | .hbm, ⟨18, _⟩ => ⟨S32768x256, .f32⟩
  | .hbm, ⟨19, _⟩ => ⟨S32768x256, .f32⟩
  | .hbm, ⟨20, _⟩ => ⟨S32768x256, .f32⟩
  | .hbm, ⟨21, _⟩ => ⟨S_, .f32⟩
  | .hbm, ⟨22, _⟩ => ⟨S32768x256, .f32⟩
  | .hbm, ⟨23, _⟩ => ⟨S32768x256, .f32⟩
  | .hbm, ⟨24, _⟩ => ⟨S_, .f32⟩
  | .hbm, ⟨25, _⟩ => ⟨S32768x256, .f32⟩
  | .hbm, ⟨26, _⟩ => ⟨S32768x256, .f32⟩
  | .hbm, ⟨27, _⟩ => ⟨S32768x256, .f32⟩
  | .hbm, ⟨28, _⟩ => ⟨S32768x256, .f32⟩
  | .hbm, ⟨29, _⟩ => ⟨S32768x256, .f32⟩
  | .hbm, ⟨30, _⟩ => ⟨S32768x256, .f32⟩
  | .hbm, ⟨31, _⟩ => ⟨S_, .f32⟩
  | .hbm, ⟨32, _⟩ => ⟨S32768x256, .f32⟩
  | .hbm, ⟨33, _⟩ => ⟨S32768x256, .f32⟩
  | .hbm, ⟨34, _⟩ => ⟨S_, .f32⟩
  | .hbm, ⟨35, _⟩ => ⟨S32768x256, .f32⟩
  | .hbm, ⟨36, _⟩ => ⟨S32768x256, .f32⟩
  | .hbm, ⟨37, _⟩ => ⟨S32768x256, .f32⟩
  | .hbm, ⟨38, _⟩ => ⟨S_, .f32⟩
  | .hbm, ⟨39, _⟩ => ⟨S32768, .f32⟩
  | .hbm, ⟨40, _⟩ => ⟨S32768x1, .f32⟩
  | .hbm, ⟨41, _⟩ => ⟨S_, .f32⟩
  | .hbm, ⟨42, _⟩ => ⟨S32768x1, .f32⟩
  | .hbm, ⟨43, _⟩ => ⟨S32768x1, .f32⟩
  | .hbm, ⟨44, _⟩ => ⟨S32768x256, .f32⟩
  | .hbm, ⟨45, _⟩ => ⟨S32768x256, .f32⟩
  | .hbm, ⟨46, _⟩ => ⟨S32768x256, .f32⟩
  | .hbm, ⟨47, _⟩ => ⟨S32768x256, .f32⟩
  | .hbm, ⟨48, _⟩ => ⟨S32768x256, .f32⟩
  | .hbm, ⟨49, _⟩ => ⟨S32768x256, .f32⟩
  | .hbm, ⟨50, _⟩ => ⟨S_, .f32⟩
  | .hbm, ⟨51, _⟩ => ⟨S32768x256, .f32⟩
  | .hbm, ⟨52, _⟩ => ⟨S32768x256, .f32⟩
  | .hbm, ⟨53, _⟩ => ⟨S_, .f32⟩
  | .hbm, ⟨54, _⟩ => ⟨S32768x256, .f32⟩
  | .hbm, ⟨55, _⟩ => ⟨S32768x256, .f32⟩
  | .hbm, ⟨56, _⟩ => ⟨S32768x256, .f32⟩
  | .hbm, ⟨57, _⟩ => ⟨S32768x256, .f32⟩
  | .hbm, ⟨58, _⟩ => ⟨S32768x256, .f32⟩
  | .hbm, ⟨59, _⟩ => ⟨S32768x256, .f32⟩
  | .hbm, ⟨60, _⟩ => ⟨S_, .f32⟩
  | .hbm, ⟨61, _⟩ => ⟨S32768x256, .f32⟩
  | .hbm, ⟨62, _⟩ => ⟨S32768x256, .f32⟩
  | .hbm, ⟨63, _⟩ => ⟨S_, .f32⟩
  | .hbm, ⟨64, _⟩ => ⟨S32768x256, .f32⟩
  | .hbm, ⟨65, _⟩ => ⟨S32768x256, .f32⟩
  | .hbm, ⟨66, _⟩ => ⟨S32768x256, .f32⟩
  | .hbm, ⟨67, _⟩ => ⟨S_, .f32⟩
  | .hbm, ⟨68, _⟩ => ⟨S32768, .f32⟩
  | .hbm, ⟨69, _⟩ => ⟨S32768x1, .f32⟩
  | .hbm, ⟨70, _⟩ => ⟨S_, .f32⟩
  | .hbm, ⟨71, _⟩ => ⟨S32768x1, .f32⟩
  | .hbm, ⟨72, _⟩ => ⟨S32768x1, .f32⟩
  | .hbm, ⟨73, _⟩ => ⟨S32768x256, .f32⟩
  | .hbm, ⟨74, _⟩ => ⟨S32768x256, .f32⟩
  | .hbm, ⟨75, _⟩ => ⟨S32768x256, .f32⟩
  | .hbm, ⟨76, _⟩ => ⟨S32768x256, .f32⟩
  | .hbm, ⟨77, _⟩ => ⟨S_, .f32⟩
  | .hbm, ⟨78, _⟩ => ⟨S32768, .f32⟩
  | .hbm, ⟨79, _⟩ => ⟨S32768x1, .f32⟩
  | .hbm, ⟨80, _⟩ => ⟨S32768x256, .f32⟩
  | .hbm, ⟨81, _⟩ => ⟨S_, .f32⟩
  | .hbm, ⟨82, _⟩ => ⟨S32768, .f32⟩
  | .hbm, ⟨83, _⟩ => ⟨S32768x1, .f32⟩
  | .hbm, ⟨84, _⟩ => ⟨S32768x1, .f32⟩
  | .hbm, ⟨85, _⟩ => ⟨S32768x256, .f32⟩
  | .hbm, ⟨86, _⟩ => ⟨S_, .f32⟩
  | .hbm, ⟨87, _⟩ => ⟨S32768, .f32⟩
  | .hbm, ⟨88, _⟩ => ⟨S32768x1, .f32⟩
  | .hbm, ⟨89, _⟩ => ⟨S32768x1, .f32⟩
  | .hbm, ⟨90, _⟩ => ⟨S32768x1, .f32⟩
  | .hbm, ⟨91, _⟩ => ⟨S32768x1, .f32⟩
  | .hbm, ⟨92, _⟩ => ⟨S32768x256, .f32⟩
  | .hbm, ⟨93, _⟩ => ⟨S32768x256, .f32⟩
  | .hbm, ⟨94, _⟩ => ⟨S_, .f32⟩
  | .hbm, ⟨95, _⟩ => ⟨S32768x256, .f32⟩
  | .hbm, ⟨96, _⟩ => ⟨S32768x256, .f32⟩
  | .hbm, ⟨97, _⟩ => ⟨S_, .f32⟩
  | .hbm, ⟨98, _⟩ => ⟨S32768x256, .f32⟩
  | .hbm, ⟨99, _⟩ => ⟨S32768x256, .f32⟩
  | .hbm, ⟨100, _⟩ => ⟨S32768x256, .f32⟩
  | .hbm, ⟨101, _⟩ => ⟨S32768x256, .f32⟩
  | .hbm, ⟨102, _⟩ => ⟨S32768x256, .f32⟩
  | .hbm, ⟨103, _⟩ => ⟨S_, .f32⟩
  | .hbm, ⟨104, _⟩ => ⟨S32768x256, .f32⟩
  | .hbm, ⟨105, _⟩ => ⟨S32768x256, .f32⟩
  | .hbm, ⟨106, _⟩ => ⟨S_, .f32⟩
  | .hbm, ⟨107, _⟩ => ⟨S32768x256, .f32⟩
  | .hbm, ⟨108, _⟩ => ⟨S32768x256, .f32⟩
  | .hbm, ⟨109, _⟩ => ⟨S32768x256, .f32⟩
  | .hbm, ⟨110, _⟩ => ⟨S32768x256, .f32⟩
  | .hbm, ⟨111, _⟩ => ⟨S32768x256, .f32⟩
  | _, _ => ⟨S32768x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_cst_4 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_cst_6 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_7 : Ref sig .tc := ⟨.hbm, 60, rfl⟩
abbrev main_v42 : Ref sig .tc := ⟨.hbm, 61, rfl⟩
abbrev main_v43 : Ref sig .tc := ⟨.hbm, 62, rfl⟩
abbrev main_cst_8 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_9 : Ref sig .tc := ⟨.hbm, 67, rfl⟩
abbrev main_v47 : Ref sig .tc := ⟨.hbm, 68, rfl⟩
abbrev main_v48 : Ref sig .tc := ⟨.hbm, 69, rfl⟩
abbrev main_cst_10 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_11 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_cst_12 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_13 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_14 : Ref sig .tc := ⟨.hbm, 94, rfl⟩
abbrev main_v69 : Ref sig .tc := ⟨.hbm, 95, rfl⟩
abbrev main_v70 : Ref sig .tc := ⟨.hbm, 96, rfl⟩
abbrev main_cst_15 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_16 : Ref sig .tc := ⟨.hbm, 103, rfl⟩
abbrev main_v76 : Ref sig .tc := ⟨.hbm, 104, rfl⟩
abbrev main_v77 : Ref sig .tc := ⟨.hbm, 105, rfl⟩
abbrev main_cst_17 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S32768x256_0_1 : S1x256.BroadcastsInDim S32768x256 (![0, 1] : Fin 2 → Fin S32768x256.rank)
  bcast_S_S32768x256 : S_.BroadcastsInDim S32768x256 (![] : Fin 0 → Fin S32768x256.rank)
  reducesTo_S32768x256_S32768_d1 : S32768x256.ReducesTo [1] S32768
  h_S_ : 0 < S_.numel
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S32768x1_S32768x256_0_1 : S32768x1.BroadcastsInDim S32768x256 (![0, 1] : Fin 2 → Fin S32768x256.rank)
  dot_S32768x768_S768x256_S32768x256_1_0_0_1_n_n_wf : DotDims.WF S32768x768 S768x256 S32768x256 [1] [0] [0] [1] [] []
  dot_S32768x2048_S2048x256_S32768x256_1_0_0_1_n_n_wf : DotDims.WF S32768x2048 S2048x256 S32768x256 [1] [0] [0] [1] [] []

variable [Facts₀]

def dot_S32768x768_S768x256_S32768x256_1_0_0_1_n_n : DotDims S32768x768 S768x256 S32768x256 where
  lhsContracting := [1]
  rhsContracting := [0]
  lhsNonContracting := [0]
  rhsNonContracting := [1]
  lhsBatch := []
  rhsBatch := []
  wf := dot_S32768x768_S768x256_S32768x256_1_0_0_1_n_n_wf
def dot_S32768x2048_S2048x256_S32768x256_1_0_0_1_n_n : DotDims S32768x2048 S2048x256 S32768x256 where
  lhsContracting := [1]
  rhsContracting := [0]
  lhsNonContracting := [0]
  rhsNonContracting := [1]
  lhsBatch := []
  rhsBatch := []
  wf := dot_S32768x2048_S2048x256_S32768x256_1_0_0_1_n_n_wf

class Facts : Prop extends Facts₀ where

variable [Facts]
-- ==== Proof.FrameBits.lean ====
/-
  The frame of the program `Kernel`: every weakly fair execution of @main terminates, faults nowhere, and leaves
  the ten argument arrays as launched.

  @main is six host operations — two concatenations along the columns, their two narrowings, two reshapes of
  the bias vectors — followed by one region over a grid of 64 points. None of the six writes an argument, so
  the region finds every argument as launched (`entry_main_argK`). At each point the body reads its six input
  windows whole (two row blocks of 512 rows, the two stacked weight matrices, the two bias rows), computes, and
  overwrites each of its two output windows with ONE store of the whole 512 × 256 block; so after the body an
  output's staging buffer holds that one stored value (`left6`, `left7`), whatever it held before, and the
  input buffers hold what they held. With that as the pipeline's proof data the library's launch theorem gives
  the run, whose post keeps every array no window writes back.
-/
import proofs.«140865_j68736656605344_1_alg».proof.Proof.Gen.Kernel.Launch
import proofs.«140865_j68736656605344_1_alg».proof.Proof.Gen.Kernel.Skeleton
import proofs.«140865_j68736656605344_1_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers as the region finds them -/

/-- Core `c`'s buffers when the region is entered: the launch memory after the six host operations. -/
abbrev entry (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is the six host operations, then the region. -/
theorem hmain (𝒱₀ : Variants) :
    Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub hostOps0_fresh main_chain

/-- A buffer none of the six host operations writes is, at the region's entry, as launched: each operation
    writes only its one result (`main_v0` … `main_v5`). -/
theorem entry_of_not_result (c : Dev nD) (b : Ref sig .tc)
    (h0 : b ≠ main_v0) (h1 : b ≠ main_v1) (h2 : b ≠ main_v2) (h3 : b ≠ main_v3) (h4 : b ≠ main_v4) (h5 : b ≠ main_v5) :
    entry m c b = m ((c : Thread nD τ).loc b) :=
  StableHlo.after_of_forall_not_mem (b := Proc.devRef .tc b) _ _ (List.forall_iff_forall_mem.mp (by
    simp only [hostOps0, List.Forall, StableHlo.nary_writes, StableHlo.unary_writes, StableHlo.reshape_writes,
      Finset.mem_singleton]
    exact ⟨StableHlo.devRef_ne_of_ne h0, StableHlo.devRef_ne_of_ne h1, StableHlo.devRef_ne_of_ne h2,
      StableHlo.devRef_ne_of_ne h3, StableHlo.devRef_ne_of_ne h4, StableHlo.devRef_ne_of_ne h5⟩))

theorem entry_main_arg0 (c : Dev nD) : entry m c main_arg0 = m ((c : Thread nD τ).loc main_arg0) :=
  entry_of_not_result m c _ (by decide) (by decide) (by decide) (by decide) (by decide) (by decide)
theorem entry_main_arg1 (c : Dev nD) : entry m c main_arg1 = m ((c : Thread nD τ).loc main_arg1) :=
  entry_of_not_result m c _ (by decide) (by decide) (by decide) (by decide) (by decide) (by decide)
theorem entry_main_arg2 (c : Dev nD) : entry m c main_arg2 = m ((c : Thread nD τ).loc main_arg2) :=
  entry_of_not_result m c _ (by decide) (by decide) (by decide) (by decide) (by decide) (by decide)
theorem entry_main_arg3 (c : Dev nD) : entry m c main_arg3 = m ((c : Thread nD τ).loc main_arg3) :=
  entry_of_not_result m c _ (by decide) (by decide) (by decide) (by decide) (by decide) (by decide)
theorem entry_main_arg4 (c : Dev nD) : entry m c main_arg4 = m ((c : Thread nD τ).loc main_arg4) :=
  entry_of_not_result m c _ (by decide) (by decide) (by decide) (by decide) (by decide) (by decide)
theorem entry_main_arg5 (c : Dev nD) : entry m c main_arg5 = m ((c : Thread nD τ).loc main_arg5) :=
  entry_of_not_result m c _ (by decide) (by decide) (by decide) (by decide) (by decide) (by decide)
theorem entry_main_arg6 (c : Dev nD) : entry m c main_arg6 = m ((c : Thread nD τ).loc main_arg6) :=
  entry_of_not_result m c _ (by decide) (by decide) (by decide) (by decide) (by decide) (by decide)
theorem entry_main_arg7 (c : Dev nD) : entry m c main_arg7 = m ((c : Thread nD τ).loc main_arg7) :=
  entry_of_not_result m c _ (by decide) (by decide) (by decide) (by decide) (by decide) (by decide)
theorem entry_main_arg8 (c : Dev nD) : entry m c main_arg8 = m ((c : Thread nD τ).loc main_arg8) :=
  entry_of_not_result m c _ (by decide) (by decide) (by decide) (by decide) (by decide) (by decide)
theorem entry_main_arg9 (c : Dev nD) : entry m c main_arg9 = m ((c : Thread nD τ).loc main_arg9) :=
  entry_of_not_result m c _ (by decide) (by decide) (by decide) (by decide) (by decide) (by decide)

/-! ## A window's block at a point -/

/-- Window `w`'s block at point `t`, read off its array as the region finds it. -/
def blockAt (c : Dev nD) (w : Fin cfg0.W) (t : Fin cfg0.N) :
    ((cfg0.win w).xblock (cfg0.grid.coords t)).Idx → Elt F (cfg0.win w).elt :=
  ((cfg0.win w).blk t).view.read (Elt F) (entry m c (Pipeline.arrRef spec0 w))

/-! ## What the body leaves in the two output windows -/

/-- The whole 512 × 256 staging block, as the rectangle both stores write through. -/
abbrev whole256 : Rect S512x256 := Rect.unit (s := S512x256) ![0, 0] S512x256.size inb_S512x256_S512x256_0_0

/-- The rectangles the six loads read through: each the whole of its staging block. -/
abbrev ld0 : Rect S512x768 := Rect.unit (s := S512x768) ![0, 0] S512x768.size inb_S512x768_S512x768_0_0
abbrev ld1 : Rect S512x2048 := Rect.unit (s := S512x2048) ![0, 0] S512x2048.size inb_S512x2048_S512x2048_0_0
abbrev ld2 : Rect S768x768 := Rect.unit (s := S768x768) ![0, 0] S768x768.size inb_S768x768_S768x768_0_0
abbrev ld3 : Rect S2048x768 := Rect.unit (s := S2048x768) ![0, 0] S2048x768.size inb_S2048x768_S2048x768_0_0
abbrev ldB : Rect S1x256 := Rect.unit (s := S1x256) ![0, 0] S1x256.size inb_S1x256_S1x256_0_0

/-- The first output's staging buffer after the body: the one stored value — a function of the six loaded
    blocks — laid over the whole block. -/
def left6 (x0 : Vec F S512x768 .f32) (x1 : Vec F S512x2048 .f32) (x2 : Vec F S768x768 .bf16)
    (x3 : Vec F S2048x768 .bf16) (x4 : Vec F S1x256 .f32) (x5 : Vec F S1x256 .f32) : Vec F S512x256 .f32 :=
  View.canon [⟨whole256, k0_pay1 (k0_pay5 (View.ld x0 ld0) (View.ld x2 ld2) (View.ld x4 ldB))
    (k0_pay7 (View.ld x0 ld0) (View.ld x1 ld1) (View.ld x2 ld2) (View.ld x3 ld3) (View.ld x4 ldB) (View.ld x5 ldB))⟩]

/-- The second output's, likewise. -/
def left7 (x0 : Vec F S512x768 .f32) (x1 : Vec F S512x2048 .f32) (x2 : Vec F S768x768 .bf16)
    (x3 : Vec F S2048x768 .bf16) (x4 : Vec F S1x256 .f32) (x5 : Vec F S1x256 .f32) : Vec F S512x256 .f32 :=
  View.canon [⟨whole256, k0_pay2 (k0_pay5 (View.ld x0 ld0) (View.ld x2 ld2) (View.ld x4 ldB))
    (k0_pay6 (View.ld x1 ld1) (View.ld x3 ld3) (View.ld x5 ldB))
    (k0_pay8 (View.ld x0 ld0) (View.ld x2 ld2) (View.ld x4 ldB))
    (k0_pay9 (View.ld x1 ld1) (View.ld x3 ld3) (View.ld x5 ldB))
    (Scalar.ofBits .f32 0x43800000#32)⟩]

/-- One store through the whole rectangle covers the block. -/
theorem whole256_covers (p : Vec F S512x256 .f32) (y : S512x256.Idx) :
    ∃ pc ∈ ([⟨whole256, p⟩] : List (View.Piece (Elt F) S512x256 .f32)), y ∈ pc.1.set :=
  View.cover_of_tiled [⟨whole256, p⟩] S512x256.size (by rfl) y

/-! ## The body's triple -/

set_option maxHeartbeats 4000000 in
/-- The body on whole staging memrefs — the six inputs' at contents `x0 … x5`, the two outputs' at anything —
    runs to the continuation with the inputs' as they were and the outputs' at `left6`, `left7` of the inputs':
    six whole loads, pure arithmetic, and per output one (unused) load of the old contents and one whole store. -/
theorem body_triple (c : Dev nD) (E : Set ℕ) (i : grid0.Coords)
    (a0 : Memref sig .tc .vmem S512x768 .f32) (h0 : a0.IsWhole) (a1 : Memref sig .tc .vmem S512x2048 .f32) (h1 : a1.IsWhole)
    (a2 : Memref sig .tc .vmem S768x768 .bf16) (h2 : a2.IsWhole) (a3 : Memref sig .tc .vmem S2048x768 .bf16) (h3 : a3.IsWhole)
    (a4 : Memref sig .tc .vmem S1x256 .f32) (h4 : a4.IsWhole) (a5 : Memref sig .tc .vmem S1x256 .f32) (h5 : a5.IsWhole)
    (a6 : Memref sig .tc .vmem S512x256 .f32) (h6 : a6.IsWhole) (a7 : Memref sig .tc .vmem S512x256 .f32) (h7 : a7.IsWhole)
    (x0 : Vec F S512x768 .f32) (x1 : Vec F S512x2048 .f32) (x2 : Vec F S768x768 .bf16)
    (x3 : Vec F S2048x768 .bf16) (x4 : Vec F S1x256 .f32) (x5 : Vec F S1x256 .f32) (K : PUnit → sProp 𝕄) :
    iprop(owns (c : Thread nD τ) a0 fullShare x0 ∗ owns (c : Thread nD τ) a1 fullShare x1
        ∗ owns (c : Thread nD τ) a2 fullShare x2 ∗ owns (c : Thread nD τ) a3 fullShare x3
        ∗ owns (c : Thread nD τ) a4 fullShare x4 ∗ owns (c : Thread nD τ) a5 fullShare x5
        ∗ (∃ d, owns (c : Thread nD τ) a6 fullShare d) ∗ (∃ d, owns (c : Thread nD τ) a7 fullShare d)
        ∗ (iprop(owns (c : Thread nD τ) a0 fullShare x0 ∗ owns (c : Thread nD τ) a1 fullShare x1
            ∗ owns (c : Thread nD τ) a2 fullShare x2 ∗ owns (c : Thread nD τ) a3 fullShare x3
            ∗ owns (c : Thread nD τ) a4 fullShare x4 ∗ owns (c : Thread nD τ) a5 fullShare x5
            ∗ owns (c : Thread nD τ) a6 fullShare (left6 x0 x1 x2 x3 x4 x5)
            ∗ owns (c : Thread nD τ) a7 fullShare (left7 x0 x1 x2 x3 x4 x5)) -∗ K ⟨⟩))
      ⊢ wp frame (wpE (defs₀ (F := F)) Variants.none c none) E (cc0__kernel i a0 h0 a1 h1 a2 h2 a3 h3 a4 h4 a5 h5 a6 h6 a7 h7) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (whole256_covers (F := F) _)
  iexists _; isplitr
  swap; · iexact H7
  ipureintro
  exact View.read_writes_eq_canon _ _ _ (whole256_covers (F := F) _)

/-! ## The pipeline's proof data -/

/-- The proof data of the one pipeline on core `c`: the arrays as the region finds them; after the body at
    point `t` each input's buffer at its block and each output's at what the one store left; the class's
    invariant (the scoped rest, untouched); nothing owed; full shares. -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => left6 (blockAt m c 0 t) (blockAt m c 1 t) (blockAt m c 2 t) (blockAt m c 3 t) (blockAt m c 4 t) (blockAt m c 5 t)
    | ⟨7, _⟩ => left7 (blockAt m c 0 t) (blockAt m c 1 t) (blockAt m c 2 t) (blockAt m c 3 t) (blockAt m c 4 t) (blockAt m c 5 t)
  Φ _ := Pipeline.ΦA spec0 c
  q _ := fullShare
  owed _ := 0

/-- The proof data's arrays are the contents the region finds. -/
theorem A_eq (c : Dev nD) (w : Fin cfg0.W) : (dats m 0 c).A w = entry m c (Pipeline.arrRef spec0 w) := by
  dsimp only [dats]

theorem after_0 (c : Dev nD) (t : Fin cfg0.N) : (dats m 0 c).after 0 t = blockAt m c 0 t := by dsimp only [dats]
theorem after_1 (c : Dev nD) (t : Fin cfg0.N) : (dats m 0 c).after 1 t = blockAt m c 1 t := by dsimp only [dats]
theorem after_2 (c : Dev nD) (t : Fin cfg0.N) : (dats m 0 c).after 2 t = blockAt m c 2 t := by dsimp only [dats]
theorem after_3 (c : Dev nD) (t : Fin cfg0.N) : (dats m 0 c).after 3 t = blockAt m c 3 t := by dsimp only [dats]
theorem after_4 (c : Dev nD) (t : Fin cfg0.N) : (dats m 0 c).after 4 t = blockAt m c 4 t := by dsimp only [dats]
theorem after_5 (c : Dev nD) (t : Fin cfg0.N) : (dats m 0 c).after 5 t = blockAt m c 5 t := by dsimp only [dats]
theorem after_6 (c : Dev nD) (t : Fin cfg0.N) : (dats m 0 c).after 6 t
    = left6 (blockAt m c 0 t) (blockAt m c 1 t) (blockAt m c 2 t) (blockAt m c 3 t) (blockAt m c 4 t) (blockAt m c 5 t) := by
  dsimp only [dats]
theorem after_7 (c : Dev nD) (t : Fin cfg0.N) : (dats m 0 c).after 7 t
    = left7 (blockAt m c 0 t) (blockAt m c 1 t) (blockAt m c 2 t) (blockAt m c 3 t) (blockAt m c 4 t) (blockAt m c 5 t) := by
  dsimp only [dats]

/-- An input's current staging buffer holds its block at every point, fetched there or not: where it is not
    fetched its block index has not moved since the point before, and the body left the block in place. -/
theorem before_0 (c : Dev nD) (t : Fin cfg0.N) (d) : (dats m 0 c).before 0 t d = blockAt m c 0 t :=
  ((dats m 0 c).before_in_eq_fetched 0 rfl (fun _ => rfl) (fun _ _ _ => rfl)
    (fun t => by rw [after_0]; unfold Dat.blockOf blockAt; rw [A_eq]; try rfl) t d).trans
    (by unfold Dat.fetched Dat.blockOf blockAt; rw [A_eq]; try rfl)
theorem before_1 (c : Dev nD) (t : Fin cfg0.N) (d) : (dats m 0 c).before 1 t d = blockAt m c 1 t :=
  ((dats m 0 c).before_in_eq_fetched 1 rfl (fun _ => rfl) (fun _ _ _ => rfl)
    (fun t => by rw [after_1]; unfold Dat.blockOf blockAt; rw [A_eq]; try rfl) t d).trans
    (by unfold Dat.fetched Dat.blockOf blockAt; rw [A_eq]; try rfl)
theorem before_2 (c : Dev nD) (t : Fin cfg0.N) (d) : (dats m 0 c).before 2 t d = blockAt m c 2 t :=
  ((dats m 0 c).before_in_eq_fetched 2 rfl (fun _ => rfl) (fun _ _ _ => rfl)
    (fun t => by rw [after_2]; unfold Dat.blockOf blockAt; rw [A_eq]; try rfl) t d).trans
    (by unfold Dat.fetched Dat.blockOf blockAt; rw [A_eq]; try rfl)
theorem before_3 (c : Dev nD) (t : Fin cfg0.N) (d) : (dats m 0 c).before 3 t d = blockAt m c 3 t :=
  ((dats m 0 c).before_in_eq_fetched 3 rfl (fun _ => rfl) (fun _ _ _ => rfl)
    (fun t => by rw [after_3]; unfold Dat.blockOf blockAt; rw [A_eq]; try rfl) t d).trans
    (by unfold Dat.fetched Dat.blockOf blockAt; rw [A_eq]; try rfl)
theorem before_4 (c : Dev nD) (t : Fin cfg0.N) (d) : (dats m 0 c).before 4 t d = blockAt m c 4 t :=
  ((dats m 0 c).before_in_eq_fetched 4 rfl (fun _ => rfl) (fun _ _ _ => rfl)
    (fun t => by rw [after_4]; unfold Dat.blockOf blockAt; rw [A_eq]; try rfl) t d).trans
    (by unfold Dat.fetched Dat.blockOf blockAt; rw [A_eq]; try rfl)
theorem before_5 (c : Dev nD) (t : Fin cfg0.N) (d) : (dats m 0 c).before 5 t d = blockAt m c 5 t :=
  ((dats m 0 c).before_in_eq_fetched 5 rfl (fun _ => rfl) (fun _ _ _ => rfl)
    (fun t => by rw [after_5]; unfold Dat.blockOf blockAt; rw [A_eq]; try rfl) t d).trans
    (by unfold Dat.fetched Dat.blockOf blockAt; rw [A_eq]; try rfl)

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' memrefs hold their blocks, so the triple applies; the invariant and the
    core's `owes` pass through unread. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_triple c Set.univ _ _ _ _ _ _ _ _ _ _ _ _ _ _ _ _ _
    (blockAt m c 0 t) (blockAt m c 1 t) (blockAt m c 2 t) (blockAt m c 3 t) (blockAt m c 4 t) (blockAt m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) :
    BodyObligation (dats (F := F) m 0 c) (defs₀ (F := F)) Variants.none () Set.univ := fun t => by
  rw [bigSep_W0, bigSep_W0]
  exact body_at m c t

/-! ## The run and the frame -/

set_option backward.isDefEq.respectTransparency.types false in
/-- From any memory with zero counters every weakly fair execution of @main terminates, and every final state
    has each window's array at what the proof data's write-backs leave and every other unscoped buffer as the
    region found it. -/
theorem run_main : θ_run defs (onTc (τ := τ) (main (F := F))) (s₀ m ρ) (Pipeline.FramePost cfgs (dats m) 0 (entry m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := entry m) (hmain := hmain m Variants.none) (hA := A_eq m) (hΦ := fun _ _ => rfl)

/-- After the run the two arguments a window stages are as launched (an input is never written back), -/
theorem kept_staged (r : PUnit × MemSt nD τ sig (Elt F)) (h : Pipeline.FramePost cfgs (dats m) 0 (entry m) r) (c : Dev nD) :
    r.2.mem ((c : Thread nD τ).loc main_arg0) = m ((c : Thread nD τ).loc main_arg0)
    ∧ r.2.mem ((c : Thread nD τ).loc main_arg1) = m ((c : Thread nD τ).loc main_arg1) :=
  ⟨((h c).1 0).trans (((dats m 0 c).arrAt_in 0 rfl _).trans ((A_eq m c 0).trans (entry_main_arg0 m c))),
   ((h c).1 1).trans (((dats m 0 c).arrAt_in 1 rfl _).trans ((A_eq m c 1).trans (entry_main_arg1 m c)))⟩

/-- and so are the eight no window stages: the region leaves them as it found them, which is as launched. -/
theorem kept_rest (r : PUnit × MemSt nD τ sig (Elt F)) (h : Pipeline.FramePost cfgs (dats m) 0 (entry m) r) (c : Dev nD) :
    r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)
    ∧ r.2.mem ((c : Thread nD τ).loc main_arg9) = m ((c : Thread nD τ).loc main_arg9) :=
  ⟨((h c).2 main_arg2 (Pipeline.mem_restRefs_of main_arg2 (by decide) (by decide))).trans (entry_main_arg2 m c),
   ((h c).2 main_arg3 (Pipeline.mem_restRefs_of main_arg3 (by decide) (by decide))).trans (entry_main_arg3 m c),
   ((h c).2 main_arg4 (Pipeline.mem_restRefs_of main_arg4 (by decide) (by decide))).trans (entry_main_arg4 m c),
   ((h c).2 main_arg5 (Pipeline.mem_restRefs_of main_arg5 (by decide) (by decide))).trans (entry_main_arg5 m c),
   ((h c).2 main_arg6 (Pipeline.mem_restRefs_of main_arg6 (by decide) (by decide))).trans (entry_main_arg6 m c),
   ((h c).2 main_arg7 (Pipeline.mem_restRefs_of main_arg7 (by decide) (by decide))).trans (entry_main_arg7 m c),
   ((h c).2 main_arg8 (Pipeline.mem_restRefs_of main_arg8 (by decide) (by decide))).trans (entry_main_arg8 m c),
   ((h c).2 main_arg9 (Pipeline.mem_restRefs_of main_arg9 (by decide) (by decide))).trans (entry_main_arg9 m c)⟩

/-- THE FRAME, at any `F`: the run terminates without a fault and the ten arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(kept_staged m r h c).1, (kept_staged m r h c).2, kept_rest m r h c⟩) (run_main m ρ)

end Cert.Kernel.Frame

end
-- ==== Proof.FrameIdeal.lean ====
/-
  The frame of the program `KernelIdeal`: every weakly fair execution of @main terminates, faults nowhere, and leaves
  the ten argument arrays as launched.

  @main is six host operations — two concatenations along the columns, their two narrowings, two reshapes of
  the bias vectors — followed by one region over a grid of 64 points. None of the six writes an argument, so
  the region finds every argument as launched (`entry_main_argK`). At each point the body reads its six input
  windows whole (two row blocks of 512 rows, the two stacked weight matrices, the two bias rows), computes, and
  overwrites each of its two output windows with ONE store of the whole 512 × 256 block; so after the body an
  output's staging buffer holds that one stored value (`left6`, `left7`), whatever it held before, and the
  input buffers hold what they held. With that as the pipeline's proof data the library's launch theorem gives
  the run, whose post keeps every array no window writes back.
-/
import proofs.«140865_j68736656605344_1_alg».proof.Proof.Gen.KernelIdeal.Launch
import proofs.«140865_j68736656605344_1_alg».proof.Proof.Gen.KernelIdeal.Skeleton
import proofs.«140865_j68736656605344_1_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers as the region finds them -/

/-- Core `c`'s buffers when the region is entered: the launch memory after the six host operations. -/
abbrev entry (c : Dev nD) (b : Ref sig .tc) : Buf (Elt F) ((c : Thread nD τ).loc b) :=
  StableHlo.after hostOps0 (fun b => m (c, b)) b

/-- No host operation allocates. -/
theorem hostOps0_fresh : (hostOps0 : List (HloOp τ sig (Elt F))).Forall fun op => op.fresh = ∅ := by
  simp only [List.Forall]; repeat' constructor

/-- @main is the six host operations, then the region. -/
theorem hmain (𝒱₀ : Variants) :
    Pipeline.HMain (Ix := Unit) (Name := ℕ) (U := UR sig nD τ) (Lvl := ℕ) cfgs 0 defs₀ 𝒱₀ m (main (F := F)) (entry m) :=
  Pipeline.hmain_prefix cfgs 0 defs₀ 𝒱₀ m main hostOps0 hostOps0_sub hostOps0_fresh main_chain

/-- A buffer none of the six host operations writes is, at the region's entry, as launched: each operation
    writes only its one result (`main_v0` … `main_v5`). -/
theorem entry_of_not_result (c : Dev nD) (b : Ref sig .tc)
    (h0 : b ≠ main_v0) (h1 : b ≠ main_v1) (h2 : b ≠ main_v2) (h3 : b ≠ main_v3) (h4 : b ≠ main_v4) (h5 : b ≠ main_v5) :
    entry m c b = m ((c : Thread nD τ).loc b) :=
  StableHlo.after_of_forall_not_mem (b := Proc.devRef .tc b) _ _ (List.forall_iff_forall_mem.mp (by
    simp only [hostOps0, List.Forall, StableHlo.nary_writes, StableHlo.unary_writes, StableHlo.reshape_writes,
      Finset.mem_singleton]
    exact ⟨StableHlo.devRef_ne_of_ne h0, StableHlo.devRef_ne_of_ne h1, StableHlo.devRef_ne_of_ne h2,
      StableHlo.devRef_ne_of_ne h3, StableHlo.devRef_ne_of_ne h4, StableHlo.devRef_ne_of_ne h5⟩))

theorem entry_main_arg0 (c : Dev nD) : entry m c main_arg0 = m ((c : Thread nD τ).loc main_arg0) :=
  entry_of_not_result m c _ (by decide) (by decide) (by decide) (by decide) (by decide) (by decide)
theorem entry_main_arg1 (c : Dev nD) : entry m c main_arg1 = m ((c : Thread nD τ).loc main_arg1) :=
  entry_of_not_result m c _ (by decide) (by decide) (by decide) (by decide) (by decide) (by decide)
theorem entry_main_arg2 (c : Dev nD) : entry m c main_arg2 = m ((c : Thread nD τ).loc main_arg2) :=
  entry_of_not_result m c _ (by decide) (by decide) (by decide) (by decide) (by decide) (by decide)
theorem entry_main_arg3 (c : Dev nD) : entry m c main_arg3 = m ((c : Thread nD τ).loc main_arg3) :=
  entry_of_not_result m c _ (by decide) (by decide) (by decide) (by decide) (by decide) (by decide)
theorem entry_main_arg4 (c : Dev nD) : entry m c main_arg4 = m ((c : Thread nD τ).loc main_arg4) :=
  entry_of_not_result m c _ (by decide) (by decide) (by decide) (by decide) (by decide) (by decide)
theorem entry_main_arg5 (c : Dev nD) : entry m c main_arg5 = m ((c : Thread nD τ).loc main_arg5) :=
  entry_of_not_result m c _ (by decide) (by decide) (by decide) (by decide) (by decide) (by decide)
theorem entry_main_arg6 (c : Dev nD) : entry m c main_arg6 = m ((c : Thread nD τ).loc main_arg6) :=
  entry_of_not_result m c _ (by decide) (by decide) (by decide) (by decide) (by decide) (by decide)
theorem entry_main_arg7 (c : Dev nD) : entry m c main_arg7 = m ((c : Thread nD τ).loc main_arg7) :=
  entry_of_not_result m c _ (by decide) (by decide) (by decide) (by decide) (by decide) (by decide)
theorem entry_main_arg8 (c : Dev nD) : entry m c main_arg8 = m ((c : Thread nD τ).loc main_arg8) :=
  entry_of_not_result m c _ (by decide) (by decide) (by decide) (by decide) (by decide) (by decide)
theorem entry_main_arg9 (c : Dev nD) : entry m c main_arg9 = m ((c : Thread nD τ).loc main_arg9) :=
  entry_of_not_result m c _ (by decide) (by decide) (by decide) (by decide) (by decide) (by decide)

/-! ## A window's block at a point -/

/-- Window `w`'s block at point `t`, read off its array as the region finds it. -/
def blockAt (c : Dev nD) (w : Fin cfg0.W) (t : Fin cfg0.N) :
    ((cfg0.win w).xblock (cfg0.grid.coords t)).Idx → Elt F (cfg0.win w).elt :=
  ((cfg0.win w).blk t).view.read (Elt F) (entry m c (Pipeline.arrRef spec0 w))

/-! ## What the body leaves in the two output windows -/

/-- The whole 512 × 256 staging block, as the rectangle both stores write through. -/
abbrev whole256 : Rect S512x256 := Rect.unit (s := S512x256) ![0, 0] S512x256.size inb_S512x256_S512x256_0_0

/-- The rectangles the six loads read through: each the whole of its staging block. -/
abbrev ld0 : Rect S512x768 := Rect.unit (s := S512x768) ![0, 0] S512x768.size inb_S512x768_S512x768_0_0
abbrev ld1 : Rect S512x2048 := Rect.unit (s := S512x2048) ![0, 0] S512x2048.size inb_S512x2048_S512x2048_0_0
abbrev ld2 : Rect S768x768 := Rect.unit (s := S768x768) ![0, 0] S768x768.size inb_S768x768_S768x768_0_0
abbrev ld3 : Rect S2048x768 := Rect.unit (s := S2048x768) ![0, 0] S2048x768.size inb_S2048x768_S2048x768_0_0
abbrev ldB : Rect S1x256 := Rect.unit (s := S1x256) ![0, 0] S1x256.size inb_S1x256_S1x256_0_0

/-- The first output's staging buffer after the body: the one stored value — a function of the six loaded
    blocks — laid over the whole block. -/
def left6 (x0 : Vec F S512x768 .f32) (x1 : Vec F S512x2048 .f32) (x2 : Vec F S768x768 .bf16)
    (x3 : Vec F S2048x768 .bf16) (x4 : Vec F S1x256 .f32) (x5 : Vec F S1x256 .f32) : Vec F S512x256 .f32 :=
  View.canon [⟨whole256, k0_pay1 (k0_pay5 (View.ld x0 ld0) (View.ld x2 ld2) (View.ld x4 ldB))
    (k0_pay7 (View.ld x0 ld0) (View.ld x1 ld1) (View.ld x2 ld2) (View.ld x3 ld3) (View.ld x4 ldB) (View.ld x5 ldB))⟩]

/-- The second output's, likewise. -/
def left7 (x0 : Vec F S512x768 .f32) (x1 : Vec F S512x2048 .f32) (x2 : Vec F S768x768 .bf16)
    (x3 : Vec F S2048x768 .bf16) (x4 : Vec F S1x256 .f32) (x5 : Vec F S1x256 .f32) : Vec F S512x256 .f32 :=
  View.canon [⟨whole256, k0_pay2 (k0_pay5 (View.ld x0 ld0) (View.ld x2 ld2) (View.ld x4 ldB))
    (k0_pay6 (View.ld x1 ld1) (View.ld x3 ld3) (View.ld x5 ldB))
    (k0_pay8 (View.ld x0 ld0) (View.ld x2 ld2) (View.ld x4 ldB))
    (k0_pay9 (View.ld x1 ld1) (View.ld x3 ld3) (View.ld x5 ldB))
    (Scalar.ofBits .f32 0x43800000#32)⟩]

/-- One store through the whole rectangle covers the block. -/
theorem whole256_covers (p : Vec F S512x256 .f32) (y : S512x256.Idx) :
    ∃ pc ∈ ([⟨whole256, p⟩] : List (View.Piece (Elt F) S512x256 .f32)), y ∈ pc.1.set :=
  View.cover_of_tiled [⟨whole256, p⟩] S512x256.size (by rfl) y

/-! ## The body's triple -/

set_option maxHeartbeats 4000000 in
/-- The body on whole staging memrefs — the six inputs' at contents `x0 … x5`, the two outputs' at anything —
    runs to the continuation with the inputs' as they were and the outputs' at `left6`, `left7` of the inputs':
    six whole loads, pure arithmetic, and per output one (unused) load of the old contents and one whole store. -/
theorem body_triple (c : Dev nD) (E : Set ℕ) (i : grid0.Coords)
    (a0 : Memref sig .tc .vmem S512x768 .f32) (h0 : a0.IsWhole) (a1 : Memref sig .tc .vmem S512x2048 .f32) (h1 : a1.IsWhole)
    (a2 : Memref sig .tc .vmem S768x768 .bf16) (h2 : a2.IsWhole) (a3 : Memref sig .tc .vmem S2048x768 .bf16) (h3 : a3.IsWhole)
    (a4 : Memref sig .tc .vmem S1x256 .f32) (h4 : a4.IsWhole) (a5 : Memref sig .tc .vmem S1x256 .f32) (h5 : a5.IsWhole)
    (a6 : Memref sig .tc .vmem S512x256 .f32) (h6 : a6.IsWhole) (a7 : Memref sig .tc .vmem S512x256 .f32) (h7 : a7.IsWhole)
    (x0 : Vec F S512x768 .f32) (x1 : Vec F S512x2048 .f32) (x2 : Vec F S768x768 .bf16)
    (x3 : Vec F S2048x768 .bf16) (x4 : Vec F S1x256 .f32) (x5 : Vec F S1x256 .f32) (K : PUnit → sProp 𝕄) :
    iprop(owns (c : Thread nD τ) a0 fullShare x0 ∗ owns (c : Thread nD τ) a1 fullShare x1
        ∗ owns (c : Thread nD τ) a2 fullShare x2 ∗ owns (c : Thread nD τ) a3 fullShare x3
        ∗ owns (c : Thread nD τ) a4 fullShare x4 ∗ owns (c : Thread nD τ) a5 fullShare x5
        ∗ (∃ d, owns (c : Thread nD τ) a6 fullShare d) ∗ (∃ d, owns (c : Thread nD τ) a7 fullShare d)
        ∗ (iprop(owns (c : Thread nD τ) a0 fullShare x0 ∗ owns (c : Thread nD τ) a1 fullShare x1
            ∗ owns (c : Thread nD τ) a2 fullShare x2 ∗ owns (c : Thread nD τ) a3 fullShare x3
            ∗ owns (c : Thread nD τ) a4 fullShare x4 ∗ owns (c : Thread nD τ) a5 fullShare x5
            ∗ owns (c : Thread nD τ) a6 fullShare (left6 x0 x1 x2 x3 x4 x5)
            ∗ owns (c : Thread nD τ) a7 fullShare (left7 x0 x1 x2 x3 x4 x5)) -∗ K ⟨⟩))
      ⊢ wp frame (wpE (defs₀ (F := F)) Variants.none c none) E (cc0__kernel i a0 h0 a1 h1 a2 h2 a3 h3 a4 h4 a5 h5 a6 h6 a7 h7) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (whole256_covers (F := F) _)
  iexists _; isplitr
  swap; · iexact H7
  ipureintro
  exact View.read_writes_eq_canon _ _ _ (whole256_covers (F := F) _)

/-! ## The pipeline's proof data -/

/-- The proof data of the one pipeline on core `c`: the arrays as the region finds them; after the body at
    point `t` each input's buffer at its block and each output's at what the one store left; the class's
    invariant (the scoped rest, untouched); nothing owed; full shares. -/
def dats (_ : Fin 1) (c : Dev nD) : Dat τ (Elt F) Unit ℕ (UR sig nD τ) ℕ cfg0 c where
  A w := entry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => blockAt m c 5 t
    | ⟨6, _⟩ => left6 (blockAt m c 0 t) (blockAt m c 1 t) (blockAt m c 2 t) (blockAt m c 3 t) (blockAt m c 4 t) (blockAt m c 5 t)
    | ⟨7, _⟩ => left7 (blockAt m c 0 t) (blockAt m c 1 t) (blockAt m c 2 t) (blockAt m c 3 t) (blockAt m c 4 t) (blockAt m c 5 t)
  Φ _ := Pipeline.ΦA spec0 c
  q _ := fullShare
  owed _ := 0

/-- The proof data's arrays are the contents the region finds. -/
theorem A_eq (c : Dev nD) (w : Fin cfg0.W) : (dats m 0 c).A w = entry m c (Pipeline.arrRef spec0 w) := by
  dsimp only [dats]

theorem after_0 (c : Dev nD) (t : Fin cfg0.N) : (dats m 0 c).after 0 t = blockAt m c 0 t := by dsimp only [dats]
theorem after_1 (c : Dev nD) (t : Fin cfg0.N) : (dats m 0 c).after 1 t = blockAt m c 1 t := by dsimp only [dats]
theorem after_2 (c : Dev nD) (t : Fin cfg0.N) : (dats m 0 c).after 2 t = blockAt m c 2 t := by dsimp only [dats]
theorem after_3 (c : Dev nD) (t : Fin cfg0.N) : (dats m 0 c).after 3 t = blockAt m c 3 t := by dsimp only [dats]
theorem after_4 (c : Dev nD) (t : Fin cfg0.N) : (dats m 0 c).after 4 t = blockAt m c 4 t := by dsimp only [dats]
theorem after_5 (c : Dev nD) (t : Fin cfg0.N) : (dats m 0 c).after 5 t = blockAt m c 5 t := by dsimp only [dats]
theorem after_6 (c : Dev nD) (t : Fin cfg0.N) : (dats m 0 c).after 6 t
    = left6 (blockAt m c 0 t) (blockAt m c 1 t) (blockAt m c 2 t) (blockAt m c 3 t) (blockAt m c 4 t) (blockAt m c 5 t) := by
  dsimp only [dats]
theorem after_7 (c : Dev nD) (t : Fin cfg0.N) : (dats m 0 c).after 7 t
    = left7 (blockAt m c 0 t) (blockAt m c 1 t) (blockAt m c 2 t) (blockAt m c 3 t) (blockAt m c 4 t) (blockAt m c 5 t) := by
  dsimp only [dats]

/-- An input's current staging buffer holds its block at every point, fetched there or not: where it is not
    fetched its block index has not moved since the point before, and the body left the block in place. -/
theorem before_0 (c : Dev nD) (t : Fin cfg0.N) (d) : (dats m 0 c).before 0 t d = blockAt m c 0 t :=
  ((dats m 0 c).before_in_eq_fetched 0 rfl (fun _ => rfl) (fun _ _ _ => rfl)
    (fun t => by rw [after_0]; unfold Dat.blockOf blockAt; rw [A_eq]; try rfl) t d).trans
    (by unfold Dat.fetched Dat.blockOf blockAt; rw [A_eq]; try rfl)
theorem before_1 (c : Dev nD) (t : Fin cfg0.N) (d) : (dats m 0 c).before 1 t d = blockAt m c 1 t :=
  ((dats m 0 c).before_in_eq_fetched 1 rfl (fun _ => rfl) (fun _ _ _ => rfl)
    (fun t => by rw [after_1]; unfold Dat.blockOf blockAt; rw [A_eq]; try rfl) t d).trans
    (by unfold Dat.fetched Dat.blockOf blockAt; rw [A_eq]; try rfl)
theorem before_2 (c : Dev nD) (t : Fin cfg0.N) (d) : (dats m 0 c).before 2 t d = blockAt m c 2 t :=
  ((dats m 0 c).before_in_eq_fetched 2 rfl (fun _ => rfl) (fun _ _ _ => rfl)
    (fun t => by rw [after_2]; unfold Dat.blockOf blockAt; rw [A_eq]; try rfl) t d).trans
    (by unfold Dat.fetched Dat.blockOf blockAt; rw [A_eq]; try rfl)
theorem before_3 (c : Dev nD) (t : Fin cfg0.N) (d) : (dats m 0 c).before 3 t d = blockAt m c 3 t :=
  ((dats m 0 c).before_in_eq_fetched 3 rfl (fun _ => rfl) (fun _ _ _ => rfl)
    (fun t => by rw [after_3]; unfold Dat.blockOf blockAt; rw [A_eq]; try rfl) t d).trans
    (by unfold Dat.fetched Dat.blockOf blockAt; rw [A_eq]; try rfl)
theorem before_4 (c : Dev nD) (t : Fin cfg0.N) (d) : (dats m 0 c).before 4 t d = blockAt m c 4 t :=
  ((dats m 0 c).before_in_eq_fetched 4 rfl (fun _ => rfl) (fun _ _ _ => rfl)
    (fun t => by rw [after_4]; unfold Dat.blockOf blockAt; rw [A_eq]; try rfl) t d).trans
    (by unfold Dat.fetched Dat.blockOf blockAt; rw [A_eq]; try rfl)
theorem before_5 (c : Dev nD) (t : Fin cfg0.N) (d) : (dats m 0 c).before 5 t d = blockAt m c 5 t :=
  ((dats m 0 c).before_in_eq_fetched 5 rfl (fun _ => rfl) (fun _ _ _ => rfl)
    (fun t => by rw [after_5]; unfold Dat.blockOf blockAt; rw [A_eq]; try rfl) t d).trans
    (by unfold Dat.fetched Dat.blockOf blockAt; rw [A_eq]; try rfl)

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the inputs' memrefs hold their blocks, so the triple applies; the invariant and the
    core's `owes` pass through unread. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (body_triple c Set.univ _ _ _ _ _ _ _ _ _ _ _ _ _ _ _ _ _
    (blockAt m c 0 t) (blockAt m c 1 t) (blockAt m c 2 t) (blockAt m c 3 t) (blockAt m c 4 t) (blockAt m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation (c : Dev nD) :
    BodyObligation (dats (F := F) m 0 c) (defs₀ (F := F)) Variants.none () Set.univ := fun t => by
  rw [bigSep_W0, bigSep_W0]
  exact body_at m c t

/-! ## The run and the frame -/

set_option backward.isDefEq.respectTransparency.types false in
/-- From any memory with zero counters every weakly fair execution of @main terminates, and every final state
    has each window's array at what the proof data's write-backs leave and every other unscoped buffer as the
    region found it. -/
theorem run_main : θ_run defs (onTc (τ := τ) (main (F := F))) (s₀ m ρ) (Pipeline.FramePost cfgs (dats m) 0 (entry m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := entry m) (hmain := hmain m Variants.none) (hA := A_eq m) (hΦ := fun _ _ => rfl)

/-- After the run the two arguments a window stages are as launched (an input is never written back), -/
theorem kept_staged (r : PUnit × MemSt nD τ sig (Elt F)) (h : Pipeline.FramePost cfgs (dats m) 0 (entry m) r) (c : Dev nD) :
    r.2.mem ((c : Thread nD τ).loc main_arg0) = m ((c : Thread nD τ).loc main_arg0)
    ∧ r.2.mem ((c : Thread nD τ).loc main_arg1) = m ((c : Thread nD τ).loc main_arg1) :=
  ⟨((h c).1 0).trans (((dats m 0 c).arrAt_in 0 rfl _).trans ((A_eq m c 0).trans (entry_main_arg0 m c))),
   ((h c).1 1).trans (((dats m 0 c).arrAt_in 1 rfl _).trans ((A_eq m c 1).trans (entry_main_arg1 m c)))⟩

/-- and so are the eight no window stages: the region leaves them as it found them, which is as launched. -/
theorem kept_rest (r : PUnit × MemSt nD τ sig (Elt F)) (h : Pipeline.FramePost cfgs (dats m) 0 (entry m) r) (c : Dev nD) :
    r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)
    ∧ r.2.mem ((c : Thread nD τ).loc main_arg9) = m ((c : Thread nD τ).loc main_arg9) :=
  ⟨((h c).2 main_arg2 (Pipeline.mem_restRefs_of main_arg2 (by decide) (by decide))).trans (entry_main_arg2 m c),
   ((h c).2 main_arg3 (Pipeline.mem_restRefs_of main_arg3 (by decide) (by decide))).trans (entry_main_arg3 m c),
   ((h c).2 main_arg4 (Pipeline.mem_restRefs_of main_arg4 (by decide) (by decide))).trans (entry_main_arg4 m c),
   ((h c).2 main_arg5 (Pipeline.mem_restRefs_of main_arg5 (by decide) (by decide))).trans (entry_main_arg5 m c),
   ((h c).2 main_arg6 (Pipeline.mem_restRefs_of main_arg6 (by decide) (by decide))).trans (entry_main_arg6 m c),
   ((h c).2 main_arg7 (Pipeline.mem_restRefs_of main_arg7 (by decide) (by decide))).trans (entry_main_arg7 m c),
   ((h c).2 main_arg8 (Pipeline.mem_restRefs_of main_arg8 (by decide) (by decide))).trans (entry_main_arg8 m c),
   ((h c).2 main_arg9 (Pipeline.mem_restRefs_of main_arg9 (by decide) (by decide))).trans (entry_main_arg9 m c)⟩

/-- THE FRAME, at any `F`: the run terminates without a fault and the ten arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨(kept_staged m r h c).1, (kept_staged m r h c).2, kept_rest m r h c⟩) (run_main m ρ)

end Cert.KernelIdeal.Frame

end
-- ==== Proof.LibRowForms.lean ====
/-
  Matrices and vectors read at an index through the layout operations a keep-dimensions row sum and a
  stacked weight matrix need: a vector cast to a column, a column broadcast along the rows, the sum over the
  columns of a matrix at a row, and three matrices of one shape laid side by side, read in each third.
  Stated over literal-extent index constructors (`ix1`, `ix2`), for any extents.
-/
import Idealize.ShloMosaic.Lib.Pipeline.Value
import Idealize.ShloMosaic.Lib.ValueIdx
import Idealize.ShloMosaic.Lib.ValueLayout
import Idealize.ShloMosaic.PureOps.Ideal.Laws

noncomputable section

namespace Cert.LibRowForms

open Idealize.ShloMosaic Idealize.ShloMosaic.ValueIdx
open scoped BigOperators

variable {α : Type}

/-- An `[a]` vector cast to a column `[a, 1]` reads, at `(i, u)`, the vector at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast along the rows to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- On the extended reals, the vector unit's sum over the columns of an `[a, b]` matrix is, at row `p`, the sum
    of that row's `b` entries. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src ?_
  funext c; apply Fin.ext
  match c with
  | ⟨0, _⟩ => rfl
  | ⟨1, _⟩ => rfl

/-- Three `[n, w]` matrices laid side by side into `[n, W]`: a column `q` of the first third reads the first
    matrix at that column, -/
theorem concat3_cols_first {n w W : ℕ} (A B C : (⟨2, ![n, w]⟩ : Shape).Idx → α)
    (h : Shape.Concatenates [(⟨2, ![n, w]⟩ : Shape), ⟨2, ![n, w]⟩, ⟨2, ![n, w]⟩] ⟨2, ![n, W]⟩ 1)
    (r : Fin n) (q : Fin W) (j : Fin w) (hq : q.val = j.val) :
    concatenate ⟨2, ![n, W]⟩ 1 [⟨⟨2, ![n, w]⟩, A⟩, ⟨⟨2, ![n, w]⟩, B⟩, ⟨⟨2, ![n, w]⟩, C⟩] h (ix2 r q) = A (ix2 r j) :=
  concatenate_apply_piece (t := ⟨2, ![n, W]⟩) (1 : Fin 2) [⟨⟨2, ![n, w]⟩, A⟩, ⟨⟨2, ![n, w]⟩, B⟩, ⟨⟨2, ![n, w]⟩, C⟩] h (ix2 r q) 0 (Nat.zero_lt_succ _) _ A rfl rfl 0 rfl (ix2 r j)
    (fun b hb => by
      match b with
      | ⟨0, _⟩ => rfl
      | ⟨1, _⟩ => exact absurd rfl hb)
    (by show 0 + j.val = q.val; omega)

/-- a column `w + j` of the second third the second matrix at column `j`, -/
theorem concat3_cols_second {n w W : ℕ} (A B C : (⟨2, ![n, w]⟩ : Shape).Idx → α)
    (h : Shape.Concatenates [(⟨2, ![n, w]⟩ : Shape), ⟨2, ![n, w]⟩, ⟨2, ![n, w]⟩] ⟨2, ![n, W]⟩ 1)
    (r : Fin n) (q : Fin W) (j : Fin w) (hq : q.val = w + j.val) :
    concatenate ⟨2, ![n, W]⟩ 1 [⟨⟨2, ![n, w]⟩, A⟩, ⟨⟨2, ![n, w]⟩, B⟩, ⟨⟨2, ![n, w]⟩, C⟩] h (ix2 r q) = B (ix2 r j) :=
  concatenate_apply_piece (t := ⟨2, ![n, W]⟩) (1 : Fin 2) [⟨⟨2, ![n, w]⟩, A⟩, ⟨⟨2, ![n, w]⟩, B⟩, ⟨⟨2, ![n, w]⟩, C⟩] h (ix2 r q) 1 (Nat.succ_lt_succ (Nat.zero_lt_succ _)) _ B rfl rfl w (by simp) (ix2 r j)
    (fun b hb => by
      match b with
      | ⟨0, _⟩ => rfl
      | ⟨1, _⟩ => exact absurd rfl hb)
    (by show w + j.val = q.val; omega)

/-- and a column `2 w + j` of the last third the third matrix at column `j`. -/
theorem concat3_cols_third {n w W : ℕ} (A B C : (⟨2, ![n, w]⟩ : Shape).Idx → α)
    (h : Shape.Concatenates [(⟨2, ![n, w]⟩ : Shape), ⟨2, ![n, w]⟩, ⟨2, ![n, w]⟩] ⟨2, ![n, W]⟩ 1)
    (r : Fin n) (q : Fin W) (j : Fin w) (hq : q.val = w + w + j.val) :
    concatenate ⟨2, ![n, W]⟩ 1 [⟨⟨2, ![n, w]⟩, A⟩, ⟨⟨2, ![n, w]⟩, B⟩, ⟨⟨2, ![n, w]⟩, C⟩] h (ix2 r q) = C (ix2 r j) :=
  concatenate_apply_piece (t := ⟨2, ![n, W]⟩) (1 : Fin 2) [⟨⟨2, ![n, w]⟩, A⟩, ⟨⟨2, ![n, w]⟩, B⟩, ⟨⟨2, ![n, w]⟩, C⟩] h (ix2 r q) 2 (Nat.succ_lt_succ (Nat.succ_lt_succ (Nat.zero_lt_succ _))) _ C rfl rfl (w + w) (by simp) (ix2 r j)
    (fun b hb => by
      match b with
      | ⟨0, _⟩ => rfl
      | ⟨1, _⟩ => exact absurd rfl hb)
    (by show w + w + j.val = q.val; omega)

end Cert.LibRowForms

end
-- ==== Proof.RowMath.lean ====
/-
  One row of the two results, on the extended reals.

  Write, for one row of the batch, `c` and `p` for the two projected views (content and picture, bias added) and
  `a₁₂, a₂, a₁, a₂₃` for the four gate pre-activations, all vectors of one length. With σ the logistic function
  and `d` the divisor of the mean,
    content result  =  σ(c) · tanh( (p · σ(a₁)) · mean(c · σ(a₁₂)) )
    picture result  =  σ(p) · tanh( (c · σ(a₂)) · mean(p · σ(a₂₃)) ) · ⟨c, p⟩ / (‖c‖ · ‖p‖)
  entry by entry, the mean, the inner product and the two norms taken over the row. Both programs compute
  exactly these expressions, in this order of operations; the constants `one = 1` and `zero = 0` are read here.
-/
import Idealize.ShloMosaic.PureOps.Ideal

noncomputable section

namespace Cert.Interact

open Idealize.ShloMosaic
open scoped BigOperators

/-- The bit pattern of `1.0` denotes the real one. -/
theorem ofBits_one : Ideal.ofBits .f32 0x3F800000#32 = 1 := by
  simp [Ideal.ofBits, Ideal.ieee, -EReal.coe_mul]; norm_num

/-- The bit pattern of `+0.0` denotes zero. -/
theorem ofBits_zero : Ideal.ofBits .f32 0x00000000#32 = 0 := by
  simp [Ideal.ofBits, Ideal.ieee]

/-- The logistic function spelt with the pattern of `1.0`, as the reference spells it: `1 / (1 + e^(−x))`. -/
theorem logistic_spelt (x : EReal) :
    Ideal.div (Ideal.ofBits .f32 0x3F800000#32) (Ideal.ofBits .f32 0x3F800000#32 + Ideal.exp (-x)) = Ideal.logistic x := by
  rw [ofBits_one]; rfl

variable {n : ℕ}

/-- The mean of a row: its sum over the divisor `d`. -/
def rowMean (d : EReal) (f : Fin n → EReal) : EReal := Ideal.div (∑ j, f j) d

/-- The cosine similarity of two rows. -/
def rowCos (c p : Fin n → EReal) : EReal :=
  Ideal.div (∑ j, c j * p j) (Ideal.sqrt (∑ j, c j * c j) * Ideal.sqrt (∑ j, p j * p j))

/-- One row of the content result. -/
def contentRow (d : EReal) (c p a12 a1 : Fin n → EReal) (h : Fin n) : EReal :=
  Ideal.logistic (c h) * Ideal.tanh ((p h * Ideal.logistic (a1 h)) * rowMean d fun j => c j * Ideal.logistic (a12 j))

/-- One row of the picture result. -/
def picRow (d : EReal) (c p a2 a23 : Fin n → EReal) (h : Fin n) : EReal :=
  Ideal.logistic (p h) * Ideal.tanh ((c h * Ideal.logistic (a2 h)) * rowMean d fun j => p j * Ideal.logistic (a23 j))
    * rowCos c p

end Cert.Interact

end
-- ==== Proof.KernelRows.lean ====
/-
  The body's values at one row of the block, on the extended reals.

  Row `p` of every value the body computes depends only on row `p` of the two input blocks (and on the weights
  and biases): the two products with the stacked weights are, entry by entry, sums over the contracted index;
  the three column thirds of each product are the three projections; a row sum is the sum of the row's 256
  entries, kept as a column and spread back along the row. So the two stored values are, at `(p, h)`, the row
  formulas `contentRow` and `picRow` of the six vectors `c, p, a₁₂, a₂, a₁, a₂₃` read off row `p` of the products.
-/
import proofs.«140865_j68736656605344_1_alg».proof.Proof.Gen.KernelIdeal.Skeleton
import proofs.«140865_j68736656605344_1_alg».proof.Proof.LibRowForms
import proofs.«140865_j68736656605344_1_alg».proof.Proof.RowMath
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Rows

open Cert.KernelIdeal Cert.KernelIdeal.Gen
open Idealize.ShloMosaic Idealize.ShloMosaic.ValueIdx Cert.LibRowForms Cert.Interact
open scoped BigOperators

/-- Column `j` of the first, second and last third of a 768-column matrix. -/
abbrev colA (j : Fin 256) : Fin 768 := ⟨0 + j.val, by omega⟩
abbrev colB (j : Fin 256) : Fin 768 := ⟨256 + j.val, by omega⟩
abbrev colC (j : Fin 256) : Fin 768 := ⟨512 + j.val, by omega⟩

/-- The divisor of the two means: the pattern of `256.0`. -/
abbrev d256 : EReal := Ideal.ofBits .f32 0x43800000#32

/-! ## The two products, entry by entry -/

theorem lhs_c_0 (i : S512x768.Idx) (q : dot_S512x768_S768x768_S512x768_1_0_0_1_n_n.contr.Idx) : (dot_S512x768_S768x768_S512x768_1_0_0_1_n_n.lhsIdx i q 0).val = (i 0).val := by
  unfold DotDims.lhsIdx
  rw [dif_neg (show ¬(0 : Fin 2) ∈ dot_S512x768_S768x768_S512x768_1_0_0_1_n_n.lhsBatch by decide), dif_pos (show (0 : Fin 2) ∈ dot_S512x768_S768x768_S512x768_1_0_0_1_n_n.lhsNonContracting by decide)]
  rfl
theorem lhs_c_1 (i : S512x768.Idx) (q : dot_S512x768_S768x768_S512x768_1_0_0_1_n_n.contr.Idx) : (dot_S512x768_S768x768_S512x768_1_0_0_1_n_n.lhsIdx i q 1).val = (q ⟨0, by decide⟩).val :=
  dot_S512x768_S768x768_S512x768_1_0_0_1_n_n.lhsIdx_val_of_single rfl i q
theorem rhs_c_0 (i : S512x768.Idx) (q : dot_S512x768_S768x768_S512x768_1_0_0_1_n_n.contr.Idx) : (dot_S512x768_S768x768_S512x768_1_0_0_1_n_n.rhsIdx i q 0).val = (q ⟨0, by decide⟩).val :=
  dot_S512x768_S768x768_S512x768_1_0_0_1_n_n.rhsIdx_val_of_single rfl i q
theorem rhs_c_1 (i : S512x768.Idx) (q : dot_S512x768_S768x768_S512x768_1_0_0_1_n_n.contr.Idx) : (dot_S512x768_S768x768_S512x768_1_0_0_1_n_n.rhsIdx i q 1).val = (i 1).val := by
  unfold DotDims.rhsIdx
  rw [dif_neg (show ¬(1 : Fin 2) ∈ dot_S512x768_S768x768_S512x768_1_0_0_1_n_n.rhsBatch by decide), dif_pos (show (1 : Fin 2) ∈ dot_S512x768_S768x768_S512x768_1_0_0_1_n_n.rhsNonContracting by decide)]
  rfl

theorem lhs_p_0 (i : S512x768.Idx) (q : dot_S512x2048_S2048x768_S512x768_1_0_0_1_n_n.contr.Idx) : (dot_S512x2048_S2048x768_S512x768_1_0_0_1_n_n.lhsIdx i q 0).val = (i 0).val := by
  unfold DotDims.lhsIdx
  rw [dif_neg (show ¬(0 : Fin 2) ∈ dot_S512x2048_S2048x768_S512x768_1_0_0_1_n_n.lhsBatch by decide), dif_pos (show (0 : Fin 2) ∈ dot_S512x2048_S2048x768_S512x768_1_0_0_1_n_n.lhsNonContracting by decide)]
  rfl
theorem lhs_p_1 (i : S512x768.Idx) (q : dot_S512x2048_S2048x768_S512x768_1_0_0_1_n_n.contr.Idx) : (dot_S512x2048_S2048x768_S512x768_1_0_0_1_n_n.lhsIdx i q 1).val = (q ⟨0, by decide⟩).val :=
  dot_S512x2048_S2048x768_S512x768_1_0_0_1_n_n.lhsIdx_val_of_single rfl i q
theorem rhs_p_0 (i : S512x768.Idx) (q : dot_S512x2048_S2048x768_S512x768_1_0_0_1_n_n.contr.Idx) : (dot_S512x2048_S2048x768_S512x768_1_0_0_1_n_n.rhsIdx i q 0).val = (q ⟨0, by decide⟩).val :=
  dot_S512x2048_S2048x768_S512x768_1_0_0_1_n_n.rhsIdx_val_of_single rfl i q
theorem rhs_p_1 (i : S512x768.Idx) (q : dot_S512x2048_S2048x768_S512x768_1_0_0_1_n_n.contr.Idx) : (dot_S512x2048_S2048x768_S512x768_1_0_0_1_n_n.rhsIdx i q 1).val = (i 1).val := by
  unfold DotDims.rhsIdx
  rw [dif_neg (show ¬(1 : Fin 2) ∈ dot_S512x2048_S2048x768_S512x768_1_0_0_1_n_n.rhsBatch by decide), dif_pos (show (1 : Fin 2) ∈ dot_S512x2048_S2048x768_S512x768_1_0_0_1_n_n.rhsNonContracting by decide)]
  rfl

variable (x0 : Vec Ideal S512x768 .f32) (x1 : Vec Ideal S512x2048 .f32) (x2 : Vec Ideal S768x768 .bf16)
  (x3 : Vec Ideal S2048x768 .bf16) (x4 : Vec Ideal S1x256 .f32) (x5 : Vec Ideal S1x256 .f32)

/-- The content block times the stacked content weights: entry `(p, q)` is the sum over `k` of row `p` of the
    block against column `q` of the weights (the narrowing to bf16 is the identity on the extended reals). -/
theorem prodC_entry (p : Fin 512) (q : Fin 768) :
    k0_pay3 x0 x2 (ix2 p q) = ∑ k : Fin 768, x0 (ix2 p k) * x2 (ix2 k q) := by
  unfold k0_pay3
  simp only [matmul]
  rw [shapeCast_self]
  rw [Ideal.matmul_constant_zero_apply, ← Equiv.sum_comp (contrEquiv1 dot_S512x768_S768x768_S512x768_1_0_0_1_n_n 768 rfl rfl).symm]
  refine Finset.sum_congr rfl fun k _ => ?_
  have hk := contrEquiv1_symm_val dot_S512x768_S768x768_S512x768_1_0_0_1_n_n 768 rfl rfl k
  have el : dot_S512x768_S768x768_S512x768_1_0_0_1_n_n.lhsIdx (ix2 p q) ((contrEquiv1 dot_S512x768_S768x768_S512x768_1_0_0_1_n_n 768 rfl rfl).symm k) = ix2 p k := funext fun a => Fin.ext (by
    match a with
    | ⟨0, _⟩ => exact lhs_c_0 _ _
    | ⟨1, _⟩ => exact (lhs_c_1 _ _).trans hk)
  have er : dot_S512x768_S768x768_S512x768_1_0_0_1_n_n.rhsIdx (ix2 p q) ((contrEquiv1 dot_S512x768_S768x768_S512x768_1_0_0_1_n_n 768 rfl rfl).symm k) = ix2 k q := funext fun a => Fin.ext (by
    match a with
    | ⟨0, _⟩ => exact (rhs_c_0 _ _).trans hk
    | ⟨1, _⟩ => exact rhs_c_1 _ _)
  rw [el, er]
  rfl

/-- The picture block times the stacked picture weights, likewise. -/
theorem prodP_entry (p : Fin 512) (q : Fin 768) :
    k0_pay4 x1 x3 (ix2 p q) = ∑ k : Fin 2048, x1 (ix2 p k) * x3 (ix2 k q) := by
  unfold k0_pay4
  simp only [matmul]
  rw [shapeCast_self]
  rw [Ideal.matmul_constant_zero_apply, ← Equiv.sum_comp (contrEquiv1 dot_S512x2048_S2048x768_S512x768_1_0_0_1_n_n 2048 rfl rfl).symm]
  refine Finset.sum_congr rfl fun k _ => ?_
  have hk := contrEquiv1_symm_val dot_S512x2048_S2048x768_S512x768_1_0_0_1_n_n 2048 rfl rfl k
  have el : dot_S512x2048_S2048x768_S512x768_1_0_0_1_n_n.lhsIdx (ix2 p q) ((contrEquiv1 dot_S512x2048_S2048x768_S512x768_1_0_0_1_n_n 2048 rfl rfl).symm k) = ix2 p k := funext fun a => Fin.ext (by
    match a with
    | ⟨0, _⟩ => exact lhs_p_0 _ _
    | ⟨1, _⟩ => exact (lhs_p_1 _ _).trans hk)
  have er : dot_S512x2048_S2048x768_S512x768_1_0_0_1_n_n.rhsIdx (ix2 p q) ((contrEquiv1 dot_S512x2048_S2048x768_S512x768_1_0_0_1_n_n 2048 rfl rfl).symm k) = ix2 k q := funext fun a => Fin.ext (by
    match a with
    | ⟨0, _⟩ => exact (rhs_p_0 _ _).trans hk
    | ⟨1, _⟩ => exact rhs_p_1 _ _)
  rw [el, er]
  rfl

/-! ## The projections and the gated rows -/

/-- The sum over the 256 columns of a block, at row `p` (the zero accumulator adds nothing). -/
theorem rowSum (v : FVec Ideal S512x256 .f32) (hφ : FKind.Formats .f32)
    (hacc : (0x00000000#32 : BitVec 32) = 0x00000000#32) (p : Fin 512) :
    multiReduction .add [1] S512 v 0x00000000#32 reduces_S512x256_S512 hφ hacc (ix1 p) = ∑ k : Fin 256, v (ix2 p k) :=
  laneSum_apply v _ _ hφ hacc p

/-- The content view: the first third of the content product, plus the bias row. -/
theorem viewC_entry (p : Fin 512) (h : Fin 256) :
    k0_pay5 x0 x2 x4 (ix2 p h) = k0_pay3 x0 x2 (ix2 p (colA h)) + x4 (ix2 (0 : Fin 1) h) := by
  unfold k0_pay5
  simp only [addf, slice2_axis1_eq, broadcastTo_1b_ab_apply, shapeCast_self]
  rfl

/-- The picture view: the first third of the picture product, plus its bias row. -/
theorem viewP_entry (p : Fin 512) (h : Fin 256) :
    k0_pay6 x1 x3 x5 (ix2 p h) = k0_pay4 x1 x3 (ix2 p (colA h)) + x5 (ix2 (0 : Fin 1) h) := by
  unfold k0_pay6
  simp only [addf, slice2_axis1_eq, broadcastTo_1b_ab_apply, shapeCast_self]
  rfl

/-- The content result's second factor at `(p, h)`: tanh of the gated picture view times the mean over the row
    of the gated content view. -/
theorem tanhC_entry (p : Fin 512) (h : Fin 256) :
    k0_pay7 x0 x1 x2 x3 x4 x5 (ix2 p h)
      = Ideal.tanh ((k0_pay6 x1 x3 x5 (ix2 p h) * Ideal.logistic (k0_pay4 x1 x3 (ix2 p (colB h))))
          * rowMean d256 fun j => k0_pay5 x0 x2 x4 (ix2 p j) * Ideal.logistic (k0_pay3 x0 x2 (ix2 p (colB j)))) := by
  unfold k0_pay7 rowMean
  simp only [tanh, mulf, logistic, divf, broadcast, slice2_axis1_eq, broadcastTo_a1_ab_apply, shapeCast_a_a1_apply]
  rw [rowSum]
  simp only [mulf, logistic, slice2_axis1_eq]
  rfl

/-- The gated content view of the picture branch at `(p, h)`. -/
theorem gateC2_entry (p : Fin 512) (h : Fin 256) :
    k0_pay8 x0 x2 x4 (ix2 p h) = k0_pay5 x0 x2 x4 (ix2 p h) * Ideal.logistic (k0_pay3 x0 x2 (ix2 p (colC h))) := by
  unfold k0_pay8
  simp only [mulf, logistic, slice2_axis1_eq]
  rfl

/-- The row sum of the gated picture view, kept as a column. -/
theorem sumP_entry (p : Fin 512) (u : Fin 1) :
    k0_pay9 x1 x3 x5 (ix2 p u)
      = ∑ j : Fin 256, k0_pay6 x1 x3 x5 (ix2 p j) * Ideal.logistic (k0_pay4 x1 x3 (ix2 p (colC j))) := by
  unfold k0_pay9
  simp only [shapeCast_a_a1_apply]
  rw [rowSum]
  simp only [mulf, logistic, slice2_axis1_eq]
  rfl

/-! ## The two stored values -/

/-- THE CONTENT RESULT at `(p, h)`: the row formula of the six vectors read off row `p`. -/
theorem content_entry (p : Fin 512) (h : Fin 256) :
    k0_pay1 (k0_pay5 x0 x2 x4) (k0_pay7 x0 x1 x2 x3 x4 x5) (ix2 p h)
      = contentRow d256 (fun j => k0_pay5 x0 x2 x4 (ix2 p j)) (fun j => k0_pay6 x1 x3 x5 (ix2 p j))
          (fun j => k0_pay3 x0 x2 (ix2 p (colB j))) (fun j => k0_pay4 x1 x3 (ix2 p (colB j))) h := by
  unfold k0_pay1 contentRow
  simp only [mulf, logistic]
  rw [tanhC_entry]
  rfl

/-- THE PICTURE RESULT at `(p, h)`. -/
theorem pic_entry (p : Fin 512) (h : Fin 256) :
    k0_pay2 (k0_pay5 x0 x2 x4) (k0_pay6 x1 x3 x5) (k0_pay8 x0 x2 x4) (k0_pay9 x1 x3 x5)
        (Scalar.ofBits .f32 0x43800000#32) (ix2 p h)
      = picRow d256 (fun j => k0_pay5 x0 x2 x4 (ix2 p j)) (fun j => k0_pay6 x1 x3 x5 (ix2 p j))
          (fun j => k0_pay3 x0 x2 (ix2 p (colC j))) (fun j => k0_pay4 x1 x3 (ix2 p (colC j))) h := by
  unfold k0_pay2 picRow rowMean rowCos
  simp only [tanh, mulf, logistic, divf, sqrt, broadcast, broadcastTo_a1_ab_apply, shapeCast_a_a1_apply,
    gateC2_entry, sumP_entry]
  rw [rowSum, rowSum, rowSum]
  simp only [mulf]
  rfl

end Cert.KernelIdeal.Rows

end
-- ==== Proof.RefRows.lean ====
/-
  The reference's two results at one row, on the extended reals.

  The reference computes the six projections as six separate matrix products (the two views with their bias
  rows added), spells each logistic function out as `1 / (1 + e^(−x))`, takes the two means and the cosine
  similarity by row sums started from zero, and combines them in the order of the row formulas `contentRow`
  and `picRow`: at `(b, h)` its results are those formulas of row `b` of its six projections.
-/
import proofs.«140865_j68736656605344_1_alg».proof.Proof.Gen.ReferenceIdeal.Read
import proofs.«140865_j68736656605344_1_alg».proof.Proof.RowMath

noncomputable section

namespace Cert.ReferenceIdeal.Rows

open Cert.ReferenceIdeal Cert.ReferenceIdeal.Read
open Idealize.ShloMosaic Idealize.ShloMosaic.ValueIdx Cert.Interact
open scoped BigOperators

/-- The divisor of the two means: the pattern of `256.0`. -/
abbrev d256 : EReal := Ideal.ofBits .f32 0x43800000#32

variable (x0 : (⟨S32768x768, .f32⟩ : BufTy).Contents (Elt Ideal)) (x1 : (⟨S32768x2048, .f32⟩ : BufTy).Contents (Elt Ideal)) (x2 : (⟨S768x256, .f32⟩ : BufTy).Contents (Elt Ideal)) (x3 : (⟨S256, .f32⟩ : BufTy).Contents (Elt Ideal))
  (x4 : (⟨S2048x256, .f32⟩ : BufTy).Contents (Elt Ideal)) (x5 : (⟨S256, .f32⟩ : BufTy).Contents (Elt Ideal)) (x6 : (⟨S2048x256, .f32⟩ : BufTy).Contents (Elt Ideal)) (x7 : (⟨S768x256, .f32⟩ : BufTy).Contents (Elt Ideal))
  (x8 : (⟨S768x256, .f32⟩ : BufTy).Contents (Elt Ideal)) (x9 : (⟨S2048x256, .f32⟩ : BufTy).Contents (Elt Ideal))

/-! ## The six logistic functions, spelt out by the reference -/

theorem gate_a1 (i : S32768x256.Idx) :
    val_main_v14 (F := Ideal) x1 x6 i = Ideal.logistic (val_main_v8 (F := Ideal) x1 x6 i) := by
  rw [val_main_v14_apply, val_main_v13_apply, val_main_cst_0_apply, val_main_v12_apply, val_main_v11_apply, val_main_cst_apply, val_main_v10_apply, val_main_v9_apply]
  exact logistic_spelt _

theorem gate_a12 (i : S32768x256.Idx) :
    val_main_v22 (F := Ideal) x0 x7 i = Ideal.logistic (val_main_v16 (F := Ideal) x0 x7 i) := by
  rw [val_main_v22_apply, val_main_v21_apply, val_main_cst_2_apply, val_main_v20_apply, val_main_v19_apply, val_main_cst_1_apply, val_main_v18_apply, val_main_v17_apply]
  exact logistic_spelt _

theorem gate_a2 (i : S32768x256.Idx) :
    val_main_v37 (F := Ideal) x0 x8 i = Ideal.logistic (val_main_v31 (F := Ideal) x0 x8 i) := by
  rw [val_main_v37_apply, val_main_v36_apply, val_main_cst_6_apply, val_main_v35_apply, val_main_v34_apply, val_main_cst_5_apply, val_main_v33_apply, val_main_v32_apply]
  exact logistic_spelt _

theorem gate_a23 (i : S32768x256.Idx) :
    val_main_v45 (F := Ideal) x1 x9 i = Ideal.logistic (val_main_v39 (F := Ideal) x1 x9 i) := by
  rw [val_main_v45_apply, val_main_v44_apply, val_main_cst_8_apply, val_main_v43_apply, val_main_v42_apply, val_main_cst_7_apply, val_main_v41_apply, val_main_v40_apply]
  exact logistic_spelt _

theorem gate_c (i : S32768x256.Idx) :
    val_main_v72 (F := Ideal) x0 x2 x3 i = Ideal.logistic (val_main_v3 (F := Ideal) x0 x2 x3 i) := by
  rw [val_main_v72_apply, val_main_v71_apply, val_main_cst_15_apply, val_main_v70_apply, val_main_v69_apply, val_main_cst_14_apply, val_main_v68_apply, val_main_v67_apply]
  exact logistic_spelt _

theorem gate_p (i : S32768x256.Idx) :
    val_main_v79 (F := Ideal) x1 x4 x5 i = Ideal.logistic (val_main_v7 (F := Ideal) x1 x4 x5 i) := by
  rw [val_main_v79_apply, val_main_v78_apply, val_main_cst_17_apply, val_main_v77_apply, val_main_v76_apply, val_main_cst_16_apply, val_main_v75_apply, val_main_v74_apply]
  exact logistic_spelt _

/-! ## The reduced index of each row sum -/

theorem idx_meanC (b : Fin 32768) (h k : Fin 256) :
    idx_main_v24 (idx_main_v25 (idx_main_v28 (ix2 b h))) k = ix2 b k :=
  funext fun a => Fin.ext (by match a with | ⟨0, _⟩ => rfl | ⟨1, _⟩ => rfl)
theorem idx_meanP (b : Fin 32768) (h k : Fin 256) :
    idx_main_v47 (idx_main_v48 (idx_main_v51 (ix2 b h))) k = ix2 b k :=
  funext fun a => Fin.ext (by match a with | ⟨0, _⟩ => rfl | ⟨1, _⟩ => rfl)
theorem idx_dot (b : Fin 32768) (h k : Fin 256) :
    idx_main_v55 (idx_main_v56 (idx_main_v81 (ix2 b h))) k = ix2 b k :=
  funext fun a => Fin.ext (by match a with | ⟨0, _⟩ => rfl | ⟨1, _⟩ => rfl)
theorem idx_normC (b : Fin 32768) (h k : Fin 256) :
    idx_main_v58 (idx_main_v59 (idx_main_v81 (ix2 b h))) k = ix2 b k :=
  funext fun a => Fin.ext (by match a with | ⟨0, _⟩ => rfl | ⟨1, _⟩ => rfl)
theorem idx_normP (b : Fin 32768) (h k : Fin 256) :
    idx_main_v62 (idx_main_v63 (idx_main_v81 (ix2 b h))) k = ix2 b k :=
  funext fun a => Fin.ext (by match a with | ⟨0, _⟩ => rfl | ⟨1, _⟩ => rfl)

/-! ## The two results -/

/-- THE CONTENT RESULT of the reference at `(b, h)`: the row formula of row `b` of its projections. -/
theorem content_entry (b : Fin 32768) (h : Fin 256) :
    val_main_v73 (F := Ideal) x0 x1 x2 x3 x4 x5 x6 x7 (ix2 b h)
      = contentRow d256 (fun j => val_main_v3 (F := Ideal) x0 x2 x3 (ix2 b j)) (fun j => val_main_v7 (F := Ideal) x1 x4 x5 (ix2 b j))
          (fun j => val_main_v16 (F := Ideal) x0 x7 (ix2 b j)) (fun j => val_main_v8 (F := Ideal) x1 x6 (ix2 b j)) h := by
  unfold contentRow rowMean
  simp only [val_main_v73_apply, gate_c, val_main_v30_apply, val_main_v29_apply, val_main_v15_apply, gate_a1,
    val_main_v28_apply, val_main_v27_apply, val_main_v26_apply, val_main_cst_4_apply, val_main_v25_apply,
    val_main_v24_apply, val_main_cst_3_apply, val_main_v23_apply, gate_a12, idx_meanC,
    Ideal.ofBits_def, ofBits_zero, zero_add]
  rfl

/-- THE PICTURE RESULT of the reference at `(b, h)`. -/
theorem pic_entry (b : Fin 32768) (h : Fin 256) :
    val_main_v82 (F := Ideal) x0 x1 x2 x3 x4 x5 x8 x9 (ix2 b h)
      = picRow d256 (fun j => val_main_v3 (F := Ideal) x0 x2 x3 (ix2 b j)) (fun j => val_main_v7 (F := Ideal) x1 x4 x5 (ix2 b j))
          (fun j => val_main_v31 (F := Ideal) x0 x8 (ix2 b j)) (fun j => val_main_v39 (F := Ideal) x1 x9 (ix2 b j)) h := by
  unfold picRow rowMean rowCos
  simp only [val_main_v82_apply, val_main_v80_apply, gate_p, val_main_v53_apply, val_main_v52_apply, val_main_v38_apply,
    gate_a2, val_main_v51_apply, val_main_v50_apply, val_main_v49_apply, val_main_cst_10_apply, val_main_v48_apply,
    val_main_v47_apply, val_main_cst_9_apply, val_main_v46_apply, gate_a23, idx_meanP,
    val_main_v81_apply, val_main_v66_apply, val_main_v56_apply, val_main_v55_apply, val_main_cst_11_apply,
    val_main_v54_apply, idx_dot, val_main_v65_apply, val_main_v60_apply, val_main_v59_apply, val_main_v58_apply,
    val_main_cst_12_apply, val_main_v57_apply, idx_normC, val_main_v64_apply, val_main_v63_apply, val_main_v62_apply,
    val_main_cst_13_apply, val_main_v61_apply, idx_normP,
    Ideal.ofBits_def, ofBits_zero, zero_add]
  rfl

end Cert.ReferenceIdeal.Rows

end
-- ==== Proof.Bridge.lean ====
/-
  Row `p` of a block against row `b` of the whole arrays.

  Suppose row `p` of the two input blocks is row `b` of the two input arrays, the stacked content weights hold
  the three content weight matrices side by side (thirds `A`, `B`, `C` of the columns), the stacked picture
  weights the three picture weight matrices, and the two bias rows are the two bias vectors. Then each of the
  kernel's six projected row vectors is the reference's — a sum over the contracted index of the same products,
  the stacking only choosing which weight matrix a column belongs to — and so the two stored values at `(p, h)`
  are the reference's two results at `(b, h)`: both are the same row formulas of the same six vectors.
-/
import proofs.«140865_j68736656605344_1_alg».proof.Proof.KernelRows
import proofs.«140865_j68736656605344_1_alg».proof.Proof.RefRows

noncomputable section

namespace Cert.Bridge

open Cert.KernelIdeal Cert.KernelIdeal.Gen Cert.KernelIdeal.Rows
open Cert.ReferenceIdeal.Read
open Idealize.ShloMosaic Idealize.ShloMosaic.ValueIdx Cert.Interact
open scoped BigOperators

/-- Two index functions of a matrix agree when their two coordinates do. -/
local macro "coords2" : tactic =>
  `(tactic| (funext a; apply Fin.ext; match a with | ⟨0, _⟩ => rfl | ⟨1, _⟩ => rfl))

variable (x0 : Vec Ideal S512x768 .f32) (x1 : Vec Ideal S512x2048 .f32) (x2 : Vec Ideal S768x768 .bf16)
  (x3 : Vec Ideal S2048x768 .bf16) (x4 : Vec Ideal S1x256 .f32) (x5 : Vec Ideal S1x256 .f32)
variable (A0 : (⟨Cert.ReferenceIdeal.S32768x768, .f32⟩ : BufTy).Contents (Elt Ideal)) (A1 : (⟨Cert.ReferenceIdeal.S32768x2048, .f32⟩ : BufTy).Contents (Elt Ideal))
  (A2 : (⟨Cert.ReferenceIdeal.S768x256, .f32⟩ : BufTy).Contents (Elt Ideal)) (A3 : (⟨Cert.ReferenceIdeal.S256, .f32⟩ : BufTy).Contents (Elt Ideal))
  (A4 : (⟨Cert.ReferenceIdeal.S2048x256, .f32⟩ : BufTy).Contents (Elt Ideal)) (A5 : (⟨Cert.ReferenceIdeal.S256, .f32⟩ : BufTy).Contents (Elt Ideal))
  (A6 : (⟨Cert.ReferenceIdeal.S2048x256, .f32⟩ : BufTy).Contents (Elt Ideal)) (A7 : (⟨Cert.ReferenceIdeal.S768x256, .f32⟩ : BufTy).Contents (Elt Ideal))
  (A8 : (⟨Cert.ReferenceIdeal.S768x256, .f32⟩ : BufTy).Contents (Elt Ideal)) (A9 : (⟨Cert.ReferenceIdeal.S2048x256, .f32⟩ : BufTy).Contents (Elt Ideal))
variable (p : Fin 512) (b : Fin 32768)

/-- A third of a product's row against the reference's product with that third's weight matrix (content). -/
theorem prodC_third (W : (⟨Cert.ReferenceIdeal.S768x256, .f32⟩ : BufTy).Contents (Elt Ideal)) (col : Fin 256 → Fin 768)
    (h0 : ∀ k, x0 (ix2 p k) = A0 (ix2 b k)) (hW : ∀ k j, x2 (ix2 k (col j)) = W (ix2 k j)) (j : Fin 256) :
    k0_pay3 x0 x2 (ix2 p (col j)) = ∑ k : Fin 768, A0 (ix2 b k) * W (ix2 k j) := by
  rw [prodC_entry]
  exact Finset.sum_congr rfl fun k _ => by rw [h0 k, hW k j]

/-- The same for the picture product. -/
theorem prodP_third (W : (⟨Cert.ReferenceIdeal.S2048x256, .f32⟩ : BufTy).Contents (Elt Ideal)) (col : Fin 256 → Fin 768)
    (h1 : ∀ k, x1 (ix2 p k) = A1 (ix2 b k)) (hW : ∀ k j, x3 (ix2 k (col j)) = W (ix2 k j)) (j : Fin 256) :
    k0_pay4 x1 x3 (ix2 p (col j)) = ∑ k : Fin 2048, A1 (ix2 b k) * W (ix2 k j) := by
  rw [prodP_entry]
  exact Finset.sum_congr rfl fun k _ => by rw [h1 k, hW k j]

/-- The reference's four gate products and two views, at `(b, j)`, as the same sums. -/
theorem ref_a12 (j : Fin 256) : val_main_v16 (F := Ideal) A0 A7 (ix2 b j) = ∑ k : Fin 768, A0 (ix2 b k) * A7 (ix2 k j) := by
  rw [val_main_v16_apply]
  exact Finset.sum_congr rfl fun k _ => by congr 2 <;> coords2
theorem ref_a2 (j : Fin 256) : val_main_v31 (F := Ideal) A0 A8 (ix2 b j) = ∑ k : Fin 768, A0 (ix2 b k) * A8 (ix2 k j) := by
  rw [val_main_v31_apply]
  exact Finset.sum_congr rfl fun k _ => by congr 2 <;> coords2
theorem ref_a1 (j : Fin 256) : val_main_v8 (F := Ideal) A1 A6 (ix2 b j) = ∑ k : Fin 2048, A1 (ix2 b k) * A6 (ix2 k j) := by
  rw [val_main_v8_apply]
  exact Finset.sum_congr rfl fun k _ => by congr 2 <;> coords2
theorem ref_a23 (j : Fin 256) : val_main_v39 (F := Ideal) A1 A9 (ix2 b j) = ∑ k : Fin 2048, A1 (ix2 b k) * A9 (ix2 k j) := by
  rw [val_main_v39_apply]
  exact Finset.sum_congr rfl fun k _ => by congr 2 <;> coords2
theorem ref_c (j : Fin 256) :
    val_main_v3 (F := Ideal) A0 A2 A3 (ix2 b j) = (∑ k : Fin 768, A0 (ix2 b k) * A2 (ix2 k j)) + A3 (ix1 j) := by
  rw [val_main_v3_apply, val_main_v0_apply, val_main_v2_apply, val_main_v1_apply]
  refine congrArg₂ (· + ·) (Finset.sum_congr rfl fun k _ => by congr 2 <;> coords2) (congrArg A3 ?_)
  funext a; apply Fin.ext; match a with | ⟨0, _⟩ => rfl
theorem ref_p (j : Fin 256) :
    val_main_v7 (F := Ideal) A1 A4 A5 (ix2 b j) = (∑ k : Fin 2048, A1 (ix2 b k) * A4 (ix2 k j)) + A5 (ix1 j) := by
  rw [val_main_v7_apply, val_main_v4_apply, val_main_v6_apply, val_main_v5_apply]
  refine congrArg₂ (· + ·) (Finset.sum_congr rfl fun k _ => by congr 2 <;> coords2) (congrArg A5 ?_)
  funext a; apply Fin.ext; match a with | ⟨0, _⟩ => rfl

variable (h0 : ∀ k, x0 (ix2 p k) = A0 (ix2 b k)) (h1 : ∀ k, x1 (ix2 p k) = A1 (ix2 b k))
  (h2a : ∀ k j, x2 (ix2 k (colA j)) = A2 (ix2 k j)) (h2b : ∀ k j, x2 (ix2 k (colB j)) = A7 (ix2 k j))
  (h2c : ∀ k j, x2 (ix2 k (colC j)) = A8 (ix2 k j))
  (h3a : ∀ k j, x3 (ix2 k (colA j)) = A4 (ix2 k j)) (h3b : ∀ k j, x3 (ix2 k (colB j)) = A6 (ix2 k j))
  (h3c : ∀ k j, x3 (ix2 k (colC j)) = A9 (ix2 k j))
  (h4 : ∀ j, x4 (ix2 (0 : Fin 1) j) = A3 (ix1 j)) (h5 : ∀ j, x5 (ix2 (0 : Fin 1) j) = A5 (ix1 j))

include h0 h2a h4 in
/-- The content view. -/
theorem viewC (j : Fin 256) : k0_pay5 x0 x2 x4 (ix2 p j) = val_main_v3 (F := Ideal) A0 A2 A3 (ix2 b j) := by
  rw [viewC_entry, prodC_third x0 x2 A0 p b A2 colA h0 h2a j, h4 j, ref_c]

include h1 h3a h5 in
/-- The picture view. -/
theorem viewP (j : Fin 256) : k0_pay6 x1 x3 x5 (ix2 p j) = val_main_v7 (F := Ideal) A1 A4 A5 (ix2 b j) := by
  rw [viewP_entry, prodP_third x1 x3 A1 p b A4 colA h1 h3a j, h5 j, ref_p]

include h0 h1 h2a h2b h3a h3b h4 h5 in
/-- THE CONTENT RESULT: the kernel's stored value at `(p, h)` is the reference's at `(b, h)`. -/
theorem content (h : Fin 256) :
    k0_pay1 (k0_pay5 x0 x2 x4) (k0_pay7 x0 x1 x2 x3 x4 x5) (ix2 p h)
      = val_main_v73 (F := Ideal) A0 A1 A2 A3 A4 A5 A6 A7 (ix2 b h) := by
  rw [Cert.KernelIdeal.Rows.content_entry, Cert.ReferenceIdeal.Rows.content_entry]
  have e1 : (fun j => k0_pay5 x0 x2 x4 (ix2 p j)) = fun j => val_main_v3 (F := Ideal) A0 A2 A3 (ix2 b j) :=
    funext (viewC x0 x2 x4 A0 A2 A3 p b h0 h2a h4)
  have e2 : (fun j => k0_pay6 x1 x3 x5 (ix2 p j)) = fun j => val_main_v7 (F := Ideal) A1 A4 A5 (ix2 b j) :=
    funext (viewP x1 x3 x5 A1 A4 A5 p b h1 h3a h5)
  have e3 : (fun j => k0_pay3 x0 x2 (ix2 p (colB j))) = fun j => val_main_v16 (F := Ideal) A0 A7 (ix2 b j) :=
    funext fun j => (prodC_third x0 x2 A0 p b A7 colB h0 h2b j).trans (ref_a12 A0 A7 b j).symm
  have e4 : (fun j => k0_pay4 x1 x3 (ix2 p (colB j))) = fun j => val_main_v8 (F := Ideal) A1 A6 (ix2 b j) :=
    funext fun j => (prodP_third x1 x3 A1 p b A6 colB h1 h3b j).trans (ref_a1 A1 A6 b j).symm
  rw [e1, e2, e3, e4]

include h0 h1 h2a h2c h3a h3c h4 h5 in
/-- THE PICTURE RESULT, likewise. -/
theorem pic (h : Fin 256) :
    k0_pay2 (k0_pay5 x0 x2 x4) (k0_pay6 x1 x3 x5) (k0_pay8 x0 x2 x4) (k0_pay9 x1 x3 x5)
        (Scalar.ofBits .f32 0x43800000#32) (ix2 p h)
      = val_main_v82 (F := Ideal) A0 A1 A2 A3 A4 A5 A8 A9 (ix2 b h) := by
  rw [Cert.KernelIdeal.Rows.pic_entry, Cert.ReferenceIdeal.Rows.pic_entry]
  have e1 : (fun j => k0_pay5 x0 x2 x4 (ix2 p j)) = fun j => val_main_v3 (F := Ideal) A0 A2 A3 (ix2 b j) :=
    funext (viewC x0 x2 x4 A0 A2 A3 p b h0 h2a h4)
  have e2 : (fun j => k0_pay6 x1 x3 x5 (ix2 p j)) = fun j => val_main_v7 (F := Ideal) A1 A4 A5 (ix2 b j) :=
    funext (viewP x1 x3 x5 A1 A4 A5 p b h1 h3a h5)
  have e3 : (fun j => k0_pay3 x0 x2 (ix2 p (colC j))) = fun j => val_main_v31 (F := Ideal) A0 A8 (ix2 b j) :=
    funext fun j => (prodC_third x0 x2 A0 p b A8 colC h0 h2c j).trans (ref_a2 A0 A8 b j).symm
  have e4 : (fun j => k0_pay4 x1 x3 (ix2 p (colC j))) = fun j => val_main_v39 (F := Ideal) A1 A9 (ix2 b j) :=
    funext fun j => (prodP_third x1 x3 A1 p b A9 colC h1 h3c j).trans (ref_a23 A1 A9 b j).symm
  rw [e1, e2, e3, e4]

end Cert.Bridge

end
-- ==== Proof.KernelValue.lean ====
/-
  What the idealized kernel's two result arrays hold after the run.

  At the region's entry the two stacked weight windows hold the three content (picture) weight matrices side by
  side — the host's concatenation, its narrowing the identity on the extended reals — and the two bias windows
  the bias vectors as one row. Point `t` of the 64 reads rows `512 t … 512 t + 511` of the two inputs and the
  whole of the other four windows, and writes back rows `512 t … 512 t + 511` of each result. So what point `t`
  writes back is block `t` of ONE function of the argument arrays (the reference's own result, by the bridge
  between the two sides' row formulas); the 64 blocks cover the array; hence each result array ends at that function.
-/
import proofs.«140865_j68736656605344_1_alg».proof.Proof.FrameIdeal
import proofs.«140865_j68736656605344_1_alg».proof.Proof.Bridge
import Idealize.ShloMosaic.Lib.Pipeline.Value
import Idealize.ShloMosaic.Lib.StableHlo.Run

set_option maxRecDepth 16384

noncomputable section

namespace Cert.KernelIdeal.Result

open Cert.KernelIdeal Cert.KernelIdeal.Gen Cert.KernelIdeal.Frame Cert.KernelIdeal.Rows
open Idealize.ShloMosaic Idealize.ShloMosaic.TcCoe Idealize.SL.Sem Idealize.ShloMosaic.ValueIdx
open Idealize.ShloMosaic.StableHlo Cert.LibRowForms
open Idealize.ShloMosaic.Pipeline (Dat)

variable (m : (ℓ : Loc nD τ sig) → Buf (Elt Ideal) ℓ) (ρ : Dev nD → PrngReg)

/-! ## The two results as functions of the argument arrays -/

/-- The content result: the reference's, of the kernel's argument arrays. -/
def contentOf (c : Dev nD) : Buf (Elt Ideal) ((c : Thread nD τ).loc main_v6_0) :=
  Cert.ReferenceIdeal.Read.val_main_v73 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg6)) (m ((c : Thread nD τ).loc main_arg7))

/-- The picture result, likewise. -/
def picOf (c : Dev nD) : Buf (Elt Ideal) ((c : Thread nD τ).loc main_v6_1) :=
  Cert.ReferenceIdeal.Read.val_main_v82 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) (m ((c : Thread nD τ).loc main_arg8)) (m ((c : Thread nD τ).loc main_arg9))

/-! ## The host-computed windows at the region's entry -/

/-- The stacked content weights: the three content weight matrices side by side, narrowed. -/
theorem entry_v1 (c : Dev nD) :
    entry m c main_v1 = truncf (F := Ideal) .bf16 (concatenate S768x768 1 [⟨S768x256, (m ((c : Thread nD τ).loc main_arg2))⟩,
      ⟨S768x256, (m ((c : Thread nD τ).loc main_arg7))⟩, ⟨S768x256, (m ((c : Thread nD τ).loc main_arg8))⟩]
      concatenates_S768x256_S768x256_S768x256_S768x768_d1) bitsLt_bf16_f32 := by
  dsimp only [entry, hostOps0]; after_results; rfl

/-- The stacked picture weights. -/
theorem entry_v3 (c : Dev nD) :
    entry m c main_v3 = truncf (F := Ideal) .bf16 (concatenate S2048x768 1 [⟨S2048x256, (m ((c : Thread nD τ).loc main_arg4))⟩,
      ⟨S2048x256, (m ((c : Thread nD τ).loc main_arg6))⟩, ⟨S2048x256, (m ((c : Thread nD τ).loc main_arg9))⟩]
      concatenates_S2048x256_S2048x256_S2048x256_S2048x768_d1) bitsLt_bf16_f32 := by
  dsimp only [entry, hostOps0]; after_results; rfl

/-- The two bias vectors, each as one row. -/
theorem entry_v4 (c : Dev nD) :
    entry m c main_v4 = shapeCast S1x256 (m ((c : Thread nD τ).loc main_arg3)) shapeCasts_S256_S1x256 := by
  dsimp only [entry, hostOps0]; after_results; rfl
theorem entry_v5 (c : Dev nD) :
    entry m c main_v5 = shapeCast S1x256 (m ((c : Thread nD τ).loc main_arg5)) shapeCasts_S256_S1x256 := by
  dsimp only [entry, hostOps0]; after_results; rfl

/-! ## Where each window's block sits -/

/-- The printed index maps over the 64 points: the two inputs and the two results advance one block of 512
    rows per point, the four other windows stay on their one block. -/
theorem grid_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- Row `p` of block `t`, as a row of the whole array: `512 t + p`. -/
def rowOf (t : Fin cfg0.N) (p : Fin 512) : Fin 32768 :=
  ⟨t.val * 512 + p.val, by
    have ht : t.val < 64 := lt_of_lt_of_eq t.isLt N_0
    have hp := p.isLt
    omega⟩

/-- Row `p` of the content block at point `t` is row `512 t + p` of the content input; -/
theorem rowsC (c : Dev nD) (t : Fin cfg0.N) (p : Fin 512) (k : Fin 768) :
    blockAt m c 0 t (ix2 p k) = (m ((c : Thread nD τ).loc main_arg0)) (ix2 (rowOf t p) k) := by
  unfold blockAt
  show entry m c main_arg0 (((cfg0.win 0).blk t).view.emb (ix2 p k)) = _
  rw [entry_main_arg0]
  obtain ⟨e00, e01, e10, e11, e20, e21, e30, e31, e40, e41, e50, e51, e60, e61, e70, e71⟩ := grid_facts t
  refine congrArg _ (funext fun a => Fin.ext ?_)
  match a with
  | ⟨0, _⟩ => show win0_0.index t (0 : Fin 2) * 512 + 1 * p.val = t.val * 512 + p.val; omega
  | ⟨1, _⟩ => show win0_0.index t (1 : Fin 2) * 768 + 1 * k.val = k.val; omega

/-- of the picture block, of the picture input. -/
theorem rowsP (c : Dev nD) (t : Fin cfg0.N) (p : Fin 512) (k : Fin 2048) :
    blockAt m c 1 t (ix2 p k) = (m ((c : Thread nD τ).loc main_arg1)) (ix2 (rowOf t p) k) := by
  unfold blockAt
  show entry m c main_arg1 (((cfg0.win 1).blk t).view.emb (ix2 p k)) = _
  rw [entry_main_arg1]
  obtain ⟨e00, e01, e10, e11, e20, e21, e30, e31, e40, e41, e50, e51, e60, e61, e70, e71⟩ := grid_facts t
  refine congrArg _ (funext fun a => Fin.ext ?_)
  match a with
  | ⟨0, _⟩ => show win0_1.index t (0 : Fin 2) * 512 + 1 * p.val = t.val * 512 + p.val; omega
  | ⟨1, _⟩ => show win0_1.index t (1 : Fin 2) * 2048 + 1 * k.val = k.val; omega

/-- The stacked weights' one block is the whole stacked array, -/
theorem stackC (c : Dev nD) (t : Fin cfg0.N) (k : Fin 768) (q : Fin 768) :
    blockAt m c 2 t (ix2 k q) = entry m c main_v1 (ix2 k q) := by
  unfold blockAt
  show entry m c main_v1 (((cfg0.win 2).blk t).view.emb (ix2 k q)) = _
  obtain ⟨e00, e01, e10, e11, e20, e21, e30, e31, e40, e41, e50, e51, e60, e61, e70, e71⟩ := grid_facts t
  refine congrArg _ (funext fun a => Fin.ext ?_)
  match a with
  | ⟨0, _⟩ => show win0_2.index t (0 : Fin 2) * 768 + 1 * k.val = k.val; omega
  | ⟨1, _⟩ => show win0_2.index t (1 : Fin 2) * 768 + 1 * q.val = q.val; omega
theorem stackP (c : Dev nD) (t : Fin cfg0.N) (k : Fin 2048) (q : Fin 768) :
    blockAt m c 3 t (ix2 k q) = entry m c main_v3 (ix2 k q) := by
  unfold blockAt
  show entry m c main_v3 (((cfg0.win 3).blk t).view.emb (ix2 k q)) = _
  obtain ⟨e00, e01, e10, e11, e20, e21, e30, e31, e40, e41, e50, e51, e60, e61, e70, e71⟩ := grid_facts t
  refine congrArg _ (funext fun a => Fin.ext ?_)
  match a with
  | ⟨0, _⟩ => show win0_3.index t (0 : Fin 2) * 2048 + 1 * k.val = k.val; omega
  | ⟨1, _⟩ => show win0_3.index t (1 : Fin 2) * 768 + 1 * q.val = q.val; omega

/-- whose three column thirds are the three weight matrices. -/
theorem stackC_A (c : Dev nD) (t : Fin cfg0.N) (k : Fin 768) (j : Fin 256) :
    blockAt m c 2 t (ix2 k (colA j)) = (m ((c : Thread nD τ).loc main_arg2)) (ix2 k j) := by
  rw [stackC, entry_v1]
  exact concat3_cols_first (m ((c : Thread nD τ).loc main_arg2)) (m ((c : Thread nD τ).loc main_arg7)) (m ((c : Thread nD τ).loc main_arg8))
    concatenates_S768x256_S768x256_S768x256_S768x768_d1 k (colA j) j (Nat.zero_add _)
theorem stackC_B (c : Dev nD) (t : Fin cfg0.N) (k : Fin 768) (j : Fin 256) :
    blockAt m c 2 t (ix2 k (colB j)) = (m ((c : Thread nD τ).loc main_arg7)) (ix2 k j) := by
  rw [stackC, entry_v1]
  exact concat3_cols_second (m ((c : Thread nD τ).loc main_arg2)) (m ((c : Thread nD τ).loc main_arg7)) (m ((c : Thread nD τ).loc main_arg8))
    concatenates_S768x256_S768x256_S768x256_S768x768_d1 k (colB j) j rfl
theorem stackC_C (c : Dev nD) (t : Fin cfg0.N) (k : Fin 768) (j : Fin 256) :
    blockAt m c 2 t (ix2 k (colC j)) = (m ((c : Thread nD τ).loc main_arg8)) (ix2 k j) := by
  rw [stackC, entry_v1]
  exact concat3_cols_third (m ((c : Thread nD τ).loc main_arg2)) (m ((c : Thread nD τ).loc main_arg7)) (m ((c : Thread nD τ).loc main_arg8))
    concatenates_S768x256_S768x256_S768x256_S768x768_d1 k (colC j) j (by show 512 + j.val = 256 + 256 + j.val; omega)
theorem stackP_A (c : Dev nD) (t : Fin cfg0.N) (k : Fin 2048) (j : Fin 256) :
    blockAt m c 3 t (ix2 k (colA j)) = (m ((c : Thread nD τ).loc main_arg4)) (ix2 k j) := by
  rw [stackP, entry_v3]
  exact concat3_cols_first (m ((c : Thread nD τ).loc main_arg4)) (m ((c : Thread nD τ).loc main_arg6)) (m ((c : Thread nD τ).loc main_arg9))
    concatenates_S2048x256_S2048x256_S2048x256_S2048x768_d1 k (colA j) j (Nat.zero_add _)
theorem stackP_B (c : Dev nD) (t : Fin cfg0.N) (k : Fin 2048) (j : Fin 256) :
    blockAt m c 3 t (ix2 k (colB j)) = (m ((c : Thread nD τ).loc main_arg6)) (ix2 k j) := by
  rw [stackP, entry_v3]
  exact concat3_cols_second (m ((c : Thread nD τ).loc main_arg4)) (m ((c : Thread nD τ).loc main_arg6)) (m ((c : Thread nD τ).loc main_arg9))
    concatenates_S2048x256_S2048x256_S2048x256_S2048x768_d1 k (colB j) j rfl
theorem stackP_C (c : Dev nD) (t : Fin cfg0.N) (k : Fin 2048) (j : Fin 256) :
    blockAt m c 3 t (ix2 k (colC j)) = (m ((c : Thread nD τ).loc main_arg9)) (ix2 k j) := by
  rw [stackP, entry_v3]
  exact concat3_cols_third (m ((c : Thread nD τ).loc main_arg4)) (m ((c : Thread nD τ).loc main_arg6)) (m ((c : Thread nD τ).loc main_arg9))
    concatenates_S2048x256_S2048x256_S2048x256_S2048x768_d1 k (colC j) j (by show 512 + j.val = 256 + 256 + j.val; omega)

/-- The bias windows' one row is the bias vector. -/
theorem biasC (c : Dev nD) (t : Fin cfg0.N) (j : Fin 256) :
    blockAt m c 4 t (ix2 (0 : Fin 1) j) = (m ((c : Thread nD τ).loc main_arg3)) (ix1 j) := by
  unfold blockAt
  show entry m c main_v4 (((cfg0.win 4).blk t).view.emb (ix2 (0 : Fin 1) j)) = _
  obtain ⟨e00, e01, e10, e11, e20, e21, e30, e31, e40, e41, e50, e51, e60, e61, e70, e71⟩ := grid_facts t
  rw [show ((cfg0.win 4).blk t).view.emb (ix2 (0 : Fin 1) j) = ix2 (0 : Fin 1) j from by
    funext a; apply Fin.ext
    match a with
    | ⟨0, _⟩ => show win0_4.index t (0 : Fin 2) * 1 + 1 * 0 = 0; omega
    | ⟨1, _⟩ => show win0_4.index t (1 : Fin 2) * 256 + 1 * j.val = j.val; omega]
  rw [entry_v4]
  exact shapeCast_a_1a_apply _ _ (0 : Fin 1) j
theorem biasP (c : Dev nD) (t : Fin cfg0.N) (j : Fin 256) :
    blockAt m c 5 t (ix2 (0 : Fin 1) j) = (m ((c : Thread nD τ).loc main_arg5)) (ix1 j) := by
  unfold blockAt
  show entry m c main_v5 (((cfg0.win 5).blk t).view.emb (ix2 (0 : Fin 1) j)) = _
  obtain ⟨e00, e01, e10, e11, e20, e21, e30, e31, e40, e41, e50, e51, e60, e61, e70, e71⟩ := grid_facts t
  rw [show ((cfg0.win 5).blk t).view.emb (ix2 (0 : Fin 1) j) = ix2 (0 : Fin 1) j from by
    funext a; apply Fin.ext
    match a with
    | ⟨0, _⟩ => show win0_5.index t (0 : Fin 2) * 1 + 1 * 0 = 0; omega
    | ⟨1, _⟩ => show win0_5.index t (1 : Fin 2) * 256 + 1 * j.val = j.val; omega]
  rw [entry_v5]
  exact shapeCast_a_1a_apply _ _ (0 : Fin 1) j

/-! ## What each point writes back -/

theorem hz : (![0, 0] : Fin 2 → Nat) = fun _ => 0 := funext fun a => by fin_cases a <;> rfl

/-- WHAT POINT `t` WRITES BACK to the content result is block `t` of `contentOf`; -/
theorem wrote6 (c : Dev nD) (t : Fin cfg0.N) :
    (dats m 0 c).flushed 6 t = ((cfg0.win 6).blk t).view.read (Elt Ideal) (contentOf m c) := by
  show (cfg0.win 6).cut (grid0.coords t) ((dats m 0 c).after 6 t) = _
  rw [after_6]
  unfold left6
  rw [View.canon_unit_zero hz]
  simp only [View.ld_unit_zero (S := S512x768) hz, View.ld_unit_zero (S := S512x2048) hz,
    View.ld_unit_zero (S := S768x768) hz, View.ld_unit_zero (S := S2048x768) hz, View.ld_unit_zero (S := S1x256) hz]
  funext y
  obtain ⟨p, h, rfl⟩ : ∃ (p : Fin 512) (h : Fin 256), y = ix2 p h := ⟨y 0, y 1, eq_ix2 y⟩
  have hemb : ((cfg0.win 6).blk t).view.emb (ix2 p h) = ix2 (rowOf t p) h := by
    obtain ⟨e00, e01, e10, e11, e20, e21, e30, e31, e40, e41, e50, e51, e60, e61, e70, e71⟩ := grid_facts t
    funext a; apply Fin.ext
    match a with
    | ⟨0, _⟩ => show win0_6.index t (0 : Fin 2) * 512 + 1 * p.val = t.val * 512 + p.val; omega
    | ⟨1, _⟩ => show win0_6.index t (1 : Fin 2) * 256 + 1 * h.val = h.val; omega
  show _ = contentOf m c (((cfg0.win 6).blk t).view.emb (ix2 p h))
  rw [hemb]
  exact Cert.Bridge.content (x0 := blockAt m c 0 t) (x1 := blockAt m c 1 t) (x2 := blockAt m c 2 t)
    (x3 := blockAt m c 3 t) (x4 := blockAt m c 4 t) (x5 := blockAt m c 5 t)
    (A0 := (m ((c : Thread nD τ).loc main_arg0))) (A1 := (m ((c : Thread nD τ).loc main_arg1))) (A2 := (m ((c : Thread nD τ).loc main_arg2))) (A3 := (m ((c : Thread nD τ).loc main_arg3)))
    (A4 := (m ((c : Thread nD τ).loc main_arg4))) (A5 := (m ((c : Thread nD τ).loc main_arg5))) (A6 := (m ((c : Thread nD τ).loc main_arg6))) (A7 := (m ((c : Thread nD τ).loc main_arg7)))
    (p := p) (b := rowOf t p)
    (h0 := fun k => rowsC m c t p k) (h1 := fun k => rowsP m c t p k)
    (h2a := fun k j => stackC_A m c t k j) (h3a := fun k j => stackP_A m c t k j)
    (h2b := fun k j => stackC_B m c t k j) (h3b := fun k j => stackP_B m c t k j)
    (h4 := fun j => biasC m c t j) (h5 := fun j => biasP m c t j) (h := h)

/-- to the picture result, block `t` of `picOf`. -/
theorem wrote7 (c : Dev nD) (t : Fin cfg0.N) :
    (dats m 0 c).flushed 7 t = ((cfg0.win 7).blk t).view.read (Elt Ideal) (picOf m c) := by
  show (cfg0.win 7).cut (grid0.coords t) ((dats m 0 c).after 7 t) = _
  rw [after_7]
  unfold left7
  rw [View.canon_unit_zero hz]
  simp only [View.ld_unit_zero (S := S512x768) hz, View.ld_unit_zero (S := S512x2048) hz,
    View.ld_unit_zero (S := S768x768) hz, View.ld_unit_zero (S := S2048x768) hz, View.ld_unit_zero (S := S1x256) hz]
  funext y
  obtain ⟨p, h, rfl⟩ : ∃ (p : Fin 512) (h : Fin 256), y = ix2 p h := ⟨y 0, y 1, eq_ix2 y⟩
  have hemb : ((cfg0.win 7).blk t).view.emb (ix2 p h) = ix2 (rowOf t p) h := by
    obtain ⟨e00, e01, e10, e11, e20, e21, e30, e31, e40, e41, e50, e51, e60, e61, e70, e71⟩ := grid_facts t
    funext a; apply Fin.ext
    match a with
    | ⟨0, _⟩ => show win0_7.index t (0 : Fin 2) * 512 + 1 * p.val = t.val * 512 + p.val; omega
    | ⟨1, _⟩ => show win0_7.index t (1 : Fin 2) * 256 + 1 * h.val = h.val; omega
  show _ = picOf m c (((cfg0.win 7).blk t).view.emb (ix2 p h))
  rw [hemb]
  exact Cert.Bridge.pic (x0 := blockAt m c 0 t) (x1 := blockAt m c 1 t) (x2 := blockAt m c 2 t)
    (x3 := blockAt m c 3 t) (x4 := blockAt m c 4 t) (x5 := blockAt m c 5 t)
    (A0 := (m ((c : Thread nD τ).loc main_arg0))) (A1 := (m ((c : Thread nD τ).loc main_arg1))) (A2 := (m ((c : Thread nD τ).loc main_arg2))) (A3 := (m ((c : Thread nD τ).loc main_arg3)))
    (A4 := (m ((c : Thread nD τ).loc main_arg4))) (A5 := (m ((c : Thread nD τ).loc main_arg5))) (A8 := (m ((c : Thread nD τ).loc main_arg8))) (A9 := (m ((c : Thread nD τ).loc main_arg9)))
    (p := p) (b := rowOf t p)
    (h0 := fun k => rowsC m c t p k) (h1 := fun k => rowsP m c t p k)
    (h2a := fun k j => stackC_A m c t k j) (h3a := fun k j => stackP_A m c t k j)
    (h2c := fun k j => stackC_C m c t k j) (h3c := fun k j => stackP_C m c t k j)
    (h4 := fun j => biasC m c t j) (h5 := fun j => biasP m c t j) (h := h)

/-! ## The 64 blocks cover each result -/

theorem mem_blk6 (t : Fin cfg0.N) (i : S32768x256.Idx) :
    i ∈ ((cfg0.win 6).blk t).view.set ↔ ∀ a : Fin 2, win0_6.index t a * S512x256.size a ≤ (i a).val
      ∧ (i a).val < win0_6.index t a * S512x256.size a + S512x256.size a := by
  show i ∈ ((View.whole main_v6_0).slice (win0_6.rect t)).set ↔ _
  rw [View.set_slice_whole, Rect.mem_set_unit]
  exact Iff.rfl

/-- Row `r` lies in the block of point `r / 512`. -/
theorem cover6 (i : S32768x256.Idx) :
    ∃ t : Fin cfg0.N, (cfg0.win 6).flush t = true ∧ i ∈ ((cfg0.win 6).blk t).view.set := by
  have hi0 : (i 0).val < 32768 := (i 0).isLt
  have hi1 : (i 1).val < 256 := (i 1).isLt
  have ht : (i 0).val / 512 < cfg0.N := by rw [show cfg0.N = 64 from N_0]; omega
  obtain ⟨t, htv⟩ : ∃ t : Fin cfg0.N, t.val = (i 0).val / 512 := ⟨⟨_, ht⟩, rfl⟩
  obtain ⟨e00, e01, e10, e11, e20, e21, e30, e31, e40, e41, e50, e51, e60, e61, e70, e71⟩ := grid_facts t
  refine ⟨t, flush0_6 t, ?_⟩
  rw [mem_blk6]
  intro a
  match a with
  | ⟨0, _⟩ =>
    show win0_6.index t (0 : Fin 2) * 512 ≤ (i 0).val ∧ (i 0).val < win0_6.index t (0 : Fin 2) * 512 + 512
    omega
  | ⟨1, _⟩ =>
    show win0_6.index t (1 : Fin 2) * 256 ≤ (i 1).val ∧ (i 1).val < win0_6.index t (1 : Fin 2) * 256 + 256
    omega

theorem mem_blk7 (t : Fin cfg0.N) (i : S32768x256.Idx) :
    i ∈ ((cfg0.win 7).blk t).view.set ↔ ∀ a : Fin 2, win0_7.index t a * S512x256.size a ≤ (i a).val
      ∧ (i a).val < win0_7.index t a * S512x256.size a + S512x256.size a := by
  show i ∈ ((View.whole main_v6_1).slice (win0_7.rect t)).set ↔ _
  rw [View.set_slice_whole, Rect.mem_set_unit]
  exact Iff.rfl

/-- Row `r` lies in the block of point `r / 512`. -/
theorem cover7 (i : S32768x256.Idx) :
    ∃ t : Fin cfg0.N, (cfg0.win 7).flush t = true ∧ i ∈ ((cfg0.win 7).blk t).view.set := by
  have hi0 : (i 0).val < 32768 := (i 0).isLt
  have hi1 : (i 1).val < 256 := (i 1).isLt
  have ht : (i 0).val / 512 < cfg0.N := by rw [show cfg0.N = 64 from N_0]; omega
  obtain ⟨t, htv⟩ : ∃ t : Fin cfg0.N, t.val = (i 0).val / 512 := ⟨⟨_, ht⟩, rfl⟩
  obtain ⟨e00, e01, e10, e11, e20, e21, e30, e31, e40, e41, e50, e51, e60, e61, e70, e71⟩ := grid_facts t
  refine ⟨t, flush0_7 t, ?_⟩
  rw [mem_blk7]
  intro a
  match a with
  | ⟨0, _⟩ =>
    show win0_7.index t (0 : Fin 2) * 512 ≤ (i 0).val ∧ (i 0).val < win0_7.index t (0 : Fin 2) * 512 + 512
    omega
  | ⟨1, _⟩ =>
    show win0_7.index t (1 : Fin 2) * 256 ≤ (i 1).val ∧ (i 1).val < win0_7.index t (1 : Fin 2) * 256 + 256
    omega

/-! ## The arrays after the run -/

theorem final6 (c : Dev nD) : (dats m 0 c).arrAt 6 cfg0.N = contentOf m c :=
  (dats m 0 c).arrAt_eq_of_cover 6 (contentOf m c) (fun t _ => wrote6 m c t) cover6
theorem final7 (c : Dev nD) : (dats m 0 c).arrAt 7 cfg0.N = picOf m c :=
  (dats m 0 c).arrAt_eq_of_cover 7 (picOf m c) (fun t _ => wrote7 m c t) cover7

/-- THE RUN of the idealized kernel: it terminates without a fault, its two result arrays end at `contentOf` and
    `picOf` of the argument arrays, and the ten arguments end as launched. -/
theorem run : θ_run defs (onTc (τ := τ) (main (F := Ideal))) ⟨m, fun _ => 0, ρ⟩ fun r => ∀ c : Dev nD,
      r.2.mem ((c : Thread nD τ).loc main_v6_0) = contentOf m c
      ∧ r.2.mem ((c : Thread nD τ).loc main_v6_1) = picOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨((h c).1 6).trans (final6 m c), ((h c).1 7).trans (final7 m c),
      (kept_staged m r h c).1, (kept_staged m r h c).2, kept_rest m r h c⟩)
    (run_main m ρ)

end Cert.KernelIdeal.Result

end
-- ==== Proof.lean ====
/-
  The certificate of the two-branch gated projection kernel against its reference, on the extended reals.

  Both programs take a content batch and a picture batch, project each to 256 columns by three weight matrices
  (one view with a bias, two gate pre-activations), and return, row by row,
    σ(c) · tanh((p · σ(a₁)) · mean(c · σ(a₁₂)))      and      σ(p) · tanh((c · σ(a₂)) · mean(p · σ(a₂₃))) · cos(c, p).
  The kernel stacks each branch's three weight matrices side by side, multiplies once per branch, and cuts the
  product into its three column thirds; it walks the batch in 64 blocks of 512 rows. A third of the stacked
  product is the product with that third's matrix, entry by entry the same sum, and everything after the products
  is the same sequence of operations on a row; so each block the kernel writes back is that block of the
  reference's result, and the 64 blocks cover the result (Proof/KernelValue.lean, Proof/Bridge.lean). The narrowing
  of the multiplied operands to bf16 is the identity on the extended reals, so the idealization rewrote nothing.

  The three frames: the two kernel programs by the pipeline's launch theorem over the body's triple
  (Proof/FrameBits.lean, Proof/FrameIdeal.lean); the reference by its run with the results dropped.
-/
import proofs.«140865_j68736656605344_1_alg».proof.Defs
import proofs.«140865_j68736656605344_1_alg».proof.Proof.Gen.Kernel
import proofs.«140865_j68736656605344_1_alg».proof.Proof.Gen.KernelIdeal
import proofs.«140865_j68736656605344_1_alg».proof.Proof.Gen.ReferenceIdeal
import proofs.«140865_j68736656605344_1_alg».proof.Proof.Gen.Pre_finite_inputs
import proofs.«140865_j68736656605344_1_alg».proof.Proof.Gen.ReferenceIdeal.Run
import proofs.«140865_j68736656605344_1_alg».proof.Proof.Gen.ReferenceIdeal.Read
import proofs.«140865_j68736656605344_1_alg».proof.Proof.FrameBits
import proofs.«140865_j68736656605344_1_alg».proof.Proof.FrameIdeal
import proofs.«140865_j68736656605344_1_alg».proof.Proof.KernelValue
import Idealize.ShloMosaic.Adequacy
import Idealize.ShloMosaic.Init

noncomputable section

namespace Cert.Proof

open Idealize.ShloMosaic Idealize.SL.Sem

theorem frame_kernel : Cert.frame_Kernel := fun m ρ _ => Cert.Kernel.Frame.frame m ρ

theorem frame_kernelIdeal : Cert.frame_KernelIdeal := fun m ρ _ => Cert.KernelIdeal.Frame.frame m ρ

/-- The reference has no kernel: its frame is its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories agreeing on the ten arguments both programs run, and both end with the two results at the
    reference's two functions of the arguments: the kernel's by its value (Proof/KernelValue.lean), the
    reference's by its run. -/
theorem algebraic : Cert.algebraic_KernelIdeal_ReferenceIdeal := by
  intro m ρ m' ρ' _ hagree
  refine ⟨fun c => Cert.KernelIdeal.Result.contentOf m c, fun c => Cert.KernelIdeal.Result.picOf m c,
    Cert.KernelIdeal.Result.run m ρ, ?_⟩
  refine (θ_run Cert.ReferenceIdeal.defs _ _).mono (fun _ h c => ⟨?_, ?_, (h c).2.2⟩)
    (Cert.ReferenceIdeal.Value.run (F := Ideal) m' ρ')
  · obtain ⟨a0, a1, a2, a3, a4, a5, a6, a7, a8, a9⟩ := hagree c
    rw [(h c).1, Cert.ReferenceIdeal.Read.val_main_v73_eq, a0, a1, a2, a3, a4, a5, a6, a7]
    rfl
  · obtain ⟨a0, a1, a2, a3, a4, a5, a6, a7, a8, a9⟩ := hagree c
    rw [(h c).2.1, Cert.ReferenceIdeal.Read.val_main_v82_eq, a0, a1, a2, a3, a4, a5, a8, a9]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
